-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S16x3x64x1024 : Shape := ⟨4, ![16, 3, 64, 1024]⟩
abbrev S16x1x64x1024 : Shape := ⟨4, ![16, 1, 64, 1024]⟩
abbrev S16x64x1024 : Shape := ⟨3, ![16, 64, 1024]⟩
abbrev S1x256x1024 : Shape := ⟨3, ![1, 256, 1024]⟩
abbrev S256x1024 : Shape := ⟨2, ![256, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S8192x1024 : Shape := ⟨2, ![8192, 1024]⟩
abbrev S512x1024 : Shape := ⟨2, ![512, 1024]⟩

abbrev nBuf : Space → Nat
  | .hbm => 20
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S16x3x64x1024, .f32⟩
  | .hbm, ⟨4, _⟩ => ⟨S16x1x64x1024, .f32⟩
  | .hbm, ⟨5, _⟩ => ⟨S16x64x1024, .f32⟩
  | .hbm, ⟨6, _⟩ => ⟨S1024x1024, .f32⟩
  | .hbm, ⟨7, _⟩ => ⟨S16x1x64x1024, .f32⟩
  | .hbm, ⟨8, _⟩ => ⟨S16x64x1024, .f32⟩
  | .hbm, ⟨9, _⟩ => ⟨S1024x1024, .f32⟩
  | .hbm, ⟨10, _⟩ => ⟨S16x1x64x1024, .f32⟩
  | .hbm, ⟨11, _⟩ => ⟨S16x64x1024, .f32⟩
  | .hbm, ⟨12, _⟩ => ⟨S1024x1024, .f32⟩
  | .hbm, ⟨13, _⟩ => ⟨S4x2048x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S8192x1024, .bf16⟩
  | .hbm, ⟨18, _⟩ => ⟨S8192x1024, .f32⟩
  | .hbm, ⟨19, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x512x128, .bf16⟩
  | .local _ .vmem, ⟨12, _⟩ => ⟨S1x512x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x512x128, .bf16⟩
  | .local _ .vmem, ⟨18, _⟩ => ⟨S1x512x128, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .f32⟩
  | .local _ .vmem, ⟨22, _⟩ => ⟨S512x1024, .f32⟩
  | .local _ .vmem, ⟨23, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S3072x1024_S16x3x64x1024 : S3072x1024.ShapeCasts S16x3x64x1024
  slices_S16x3x64x1024_S16x1x64x1024_0_0_0_0 : S16x3x64x1024.Slices ![0, 0, 0, 0] S16x1x64x1024
  shapeCasts_S16x1x64x1024_S16x64x1024 : S16x1x64x1024.ShapeCasts S16x64x1024
  shapeCasts_S16x64x1024_S1024x1024 : S16x64x1024.ShapeCasts S1024x1024
  slices_S16x3x64x1024_S16x1x64x1024_0_1_0_0 : S16x3x64x1024.Slices ![0, 1, 0, 0] S16x1x64x1024
  slices_S16x3x64x1024_S16x1x64x1024_0_2_0_0 : S16x3x64x1024.Slices ![0, 2, 0, 0] S16x1x64x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S8192x1024_S4x2048x1024 : S8192x1024.ShapeCasts S4x2048x1024
  dot_S256x1024_S1024x1024_S256x1024_1_1_0_0_n_n_wf : DotDims.WF S256x1024 S1024x1024 S256x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S4x2048x1024.size a
  hwx0_4 : ∀ i : grid0.Coords, EltTy.bits .bf16 = 32 ∨ (Rect.block (s := S4x2048x1024) S1x256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S4x2048x1024.size a
  hwx0_5 : ∀ i : grid0.Coords, EltTy.bits .bf16 = 32 ∨ (Rect.block (s := S4x2048x1024) S1x256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S4x2048x1024.size a
  hwx0_6 : ∀ i : grid0.Coords, EltTy.bits .bf16 = 32 ∨ (Rect.block (s := S4x2048x1024) S1x256x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x1024.size a
  hwx1_0 : ∀ i : grid1.Coords, EltTy.bits .bf16 = 32 ∨ (Rect.block (s := S4x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1024.size a
  hwx1_1 : ∀ i : grid1.Coords, EltTy.bits .bf16 = 32 ∨ (Rect.block (s := S4x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1024.size a
  hwx1_2 : ∀ i : grid1.Coords, EltTy.bits .bf16 = 32 ∨ (Rect.block (s := S4x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S8192x1024.size a
  hwx2_2 : ∀ i : grid2.Coords, EltTy.bits .f32 = 32 ∨ (Rect.block (s := S8192x1024) S512x1024.size (cc2_transform_2 i) (hinb2_2 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x16x192, .f32⟩
  | .hbm, ⟨5, _⟩ => ⟨S4x16x2048x192, .f32⟩
  | .hbm, ⟨6, _⟩ => ⟨S4x16x2048x64, .f32⟩
  | .hbm, ⟨7, _⟩ => ⟨S4x16x2048x64, .f32⟩
  | .hbm, ⟨8, _⟩ => ⟨S4x16x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S_, .f32⟩
  | .hbm, ⟨19, _⟩ => ⟨S4x16x2048, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x64, .f32⟩
  | .hbm, ⟨31, _⟩ => ⟨S4x2048x16x64, .f32⟩
  | .hbm, ⟨32, _⟩ => ⟨S4x2048x1024, .f32⟩
  | .hbm, ⟨33, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KRun.lean ====
/-
  The idealized kernel program, run from the launch to the return, with its RESULT named.

  The program is six segments in order: a stretch of host operations (the fused weight regrouped into three
  1024×1024 weights), the projection kernel, the attention kernel, a reshape, the output-projection kernel, a
  reshape.  The buffer contents at each segment boundary are a fold through the program from the launch memory; the
  run below states that every weakly fair execution terminates without a fault in a state whose result buffer holds
  the last boundary's contents at that buffer, and whose three argument buffers are as launched.
-/
import proofs.«144489_j31301721653741_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents, the arguments as launched. -/
theorem run_named : θ_run defs (onTc (τ := τ) (main (F := F))) ⟨m, fun _ => 0, ρ⟩ (fun r => ∀ c : Dev nD,
      r.2.mem ((c.tc : Thread nD τ).loc main_v14) = W6 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v14 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.RunValue

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.LibLogSoftmax.lean ====
/-
  The logarithm of a row-wise softmax, read one entry at a time at the exact (extended-real) values.

  For a row f of C numbers let  m = max(−∞, f 0, …, f (C−1))  and
      logSoftmax f c = (f c − m) − log Σ_k exp (f k − m).
  Applied to every row of an M×C array this is one whole-array function, and entry (p, q) sees the array only
  through its row p.  Two spellings are identified with it, for every M and C:  the vector unit's (a lane maximum
  folded from the word of −∞, recast as a column and spread back over the lanes, a subtraction, the exponential, a
  lane sum, its logarithm as a column spread back, a subtraction), and the host's (the same steps as whole-array
  operations, with one more maximum against an array that holds −∞ everywhere).  The maximum is a fold of max that
  starts at −∞, so it is at least −∞ and the host's extra maximum changes nothing;  both sums are the plain sum over
  the C lanes.  Nothing is cancelled or distributed, so no finiteness of the entries is used.
-/
import Idealize.ShloMosaic.Lib.ValueIdx
import Idealize.ShloMosaic.Lib.Pipeline.Value
import Idealize.ShloMosaic.PureOps.Ideal.Laws
import proofs.«144489_j31301721653741_2_alg».proof.Proof.LibColumn

noncomputable section

open scoped BigOperators

namespace Cert.LogSoftmax

open Idealize.ShloMosaic Idealize.ShloMosaic.ValueIdx Cert.Column

/-! ## The function -/

/-- −∞, as the value of the f32 word both programs start their maxima from. -/
def negInf : EReal := Ideal.ofBits .f32 0xFF800000#32

/-- The maximum of a row, folded from −∞. -/
def rowMax {C : Nat} (f : Fin C → EReal) : EReal := (Finset.univ : Finset (Fin C)).fold max negInf f

/-- Entry c of the logarithm of the softmax of a row. -/
def logSoftmax {C : Nat} (f : Fin C → EReal) (c : Fin C) : EReal :=
  (f c - rowMax f) - Ideal.log (∑ k : Fin C, Ideal.exp (f k - rowMax f))

/-- A fold of max is at least the value it starts from. -/
theorem negInf_le_rowMax {C : Nat} (f : Fin C → EReal) : negInf ≤ rowMax f :=
  (Finset.le_fold_max _).2 (Or.inl le_rfl)

/-- So one more maximum against −∞ changes nothing. -/
theorem max_negInf_rowMax {C : Nat} (f : Fin C → EReal) : max negInf (rowMax f) = rowMax f :=
  max_eq_right (negInf_le_rowMax f)

/-! ## Reductions along the lanes of an M×C array -/

/-- The row index p with the lane k put back is (p, k). -/
theorem lift_row {M C : Nat} (h : (⟨2, ![M, C]⟩ : Shape).Reduces [1] (⟨1, ![M]⟩ : Shape)) (p : Fin M)
    (k : Fin ((⟨2, ![M, C]⟩ : Shape).size 1)) : h.lift (ix1 p) k = ix2 p (⟨k.val, k.isLt⟩ : Fin C) := by
  funext c; apply Fin.ext
  fin_cases c <;> rfl

/-- The vector unit's lane maximum from the word of −∞, at row p: the row's maximum. -/
theorem laneMax_apply {M C : Nat} (src : FVec Ideal (⟨2, ![M, C]⟩ : Shape) .f32)
    (h : (⟨2, ![M, C]⟩ : Shape).Reduces [1] (⟨1, ![M]⟩ : Shape)) (hφ : FKind.Formats .f32)
    (hacc : (0xFF800000#32 : BitVec 32) = FKind.maximumf.neutral .f32 hφ) (p : Fin M) :
    multiReduction .maximumf [1] (⟨1, ![M]⟩ : Shape) src 0xFF800000#32 h hφ hacc (ix1 p) = rowMax fun c => src (ix2 p c) := by
  rw [Ideal.multiReduction_maximumf_single]
  have hf : (src ∘ h.lift (ix1 p)) = fun k : Fin C => src (ix2 p k) := funext fun k => congrArg src (lift_row h p k)
  exact congrArg (fun f => Finset.fold max (Ideal.ofBits .f32 0xFF800000#32) f (Finset.univ : Finset (Fin C))) hf

/-- The vector unit's lane sum from the zero word, at row p: the sum over the row. -/
theorem laneSum_apply {M C : Nat} (src : FVec Ideal (⟨2, ![M, C]⟩ : Shape) .f32)
    (h : (⟨2, ![M, C]⟩ : Shape).Reduces [1] (⟨1, ![M]⟩ : Shape)) (hφ : FKind.Formats .f32)
    (hacc : (0x00000000#32 : BitVec 32) = FKind.add.neutral .f32 hφ) (p : Fin M) :
    multiReduction .add [1] (⟨1, ![M]⟩ : Shape) src 0x00000000#32 h hφ hacc (ix1 p) = ∑ c : Fin C, src (ix2 p c) := by
  rw [Ideal.multiReduction_add_single]
  exact Finset.sum_congr rfl fun k _ => congrArg src (lift_row h p k)

/-- The host's maximum-reduce from −∞ along the lanes, at row p: the row's maximum. -/
theorem hostMax_apply {M C : Nat} (x : FVec Ideal (⟨2, ![M, C]⟩ : Shape) .f32)
    (h' : (⟨2, ![M, C]⟩ : Shape).ReducesTo [1] (⟨1, ![M]⟩ : Shape)) (h : (⟨2, ![M, C]⟩ : Shape).Reduces [1] (⟨1, ![M]⟩ : Shape))
    (hu : 0 < (⟨0, ![]⟩ : Shape).numel) (p : Fin M) :
    Host.reduce FloatOps.maximumf x (constant (F := Ideal) (⟨0, ![]⟩ : Shape) .f32 0xFF800000#32) h' hu (ix1 p)
      = rowMax fun c => x (ix2 p c) := by
  rw [Host.reduce_eq_fold_single FloatOps.maximumf x _ h' h hu]
  have hf : (x ∘ h.lift (ix1 p)) = fun k : Fin C => x (ix2 p k) := funext fun k => congrArg x (lift_row h p k)
  exact congrArg (fun f => Finset.fold max (Ideal.ofBits .f32 0xFF800000#32) f (Finset.univ : Finset (Fin C))) hf

/-- The host's sum from zero along the lanes, at row p: the sum over the row. -/
theorem hostSum_apply {M C : Nat} (x : FVec Ideal (⟨2, ![M, C]⟩ : Shape) .f32)
    (h' : (⟨2, ![M, C]⟩ : Shape).ReducesTo [1] (⟨1, ![M]⟩ : Shape)) (h : (⟨2, ![M, C]⟩ : Shape).Reduces [1] (⟨1, ![M]⟩ : Shape))
    (hu : 0 < (⟨0, ![]⟩ : Shape).numel) (p : Fin M) :
    Host.reduceAdd x (constant (F := Ideal) (⟨0, ![]⟩ : Shape) .f32 0x00000000#32) h' hu (ix1 p) = ∑ c : Fin C, x (ix2 p c) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

/-! ## The host's three spreads, read at an index -/

variable {α : Type}

/-- A scalar spread over a length-M vector reads the scalar everywhere. -/
theorem spread_scalar_apply {M : Nat} (v : (⟨0, ![]⟩ : Shape).Idx → α)
    (h : (⟨0, ![]⟩ : Shape).BroadcastsInDim (⟨1, ![M]⟩ : Shape) ![]) (p : Fin M) :
    broadcastInDim (⟨1, ![M]⟩ : Shape) ![] h v (ix1 p) = v ix0 :=
  broadcastInDim_apply _ h v _ _ fun a => a.elim0

/-- A length-M vector placed on axis 0 of an M×1 column reads, at (p, u), the vector at p. -/
theorem spread_vec_col_apply {M : Nat} (v : (⟨1, ![M]⟩ : Shape).Idx → α)
    (h : (⟨1, ![M]⟩ : Shape).BroadcastsInDim (⟨2, ![M, 1]⟩ : Shape) ![0]) (p : Fin M) (u : Fin 1) :
    broadcastInDim (⟨2, ![M, 1]⟩ : Shape) ![0] h v (ix2 p u) = v (ix1 p) := by
  refine broadcastInDim_apply _ h v _ _ fun a => ?_
  match a with
  | ⟨0, _⟩ =>
    show p.val = if M = 1 then 0 else p.val
    split
    · have := p.isLt; omega
    · rfl

/-- An M×1 column spread over C lanes reads, at (p, q), the column at (p, 0). -/
theorem spread_col_apply {M C : Nat} (v : (⟨2, ![M, 1]⟩ : Shape).Idx → α)
    (h : (⟨2, ![M, 1]⟩ : Shape).BroadcastsInDim (⟨2, ![M, C]⟩ : Shape) ![0, 1]) (p : Fin M) (q : Fin C) :
    broadcastInDim (⟨2, ![M, C]⟩ : Shape) ![0, 1] h v (ix2 p q) = v (ix2 p (0 : Fin 1)) := by
  refine broadcastInDim_apply _ h v _ _ fun a => ?_
  match a with
  | ⟨0, _⟩ =>
    show p.val = if M = 1 then 0 else p.val
    split
    · have := p.isLt; omega
    · rfl
  | ⟨1, _⟩ =>
    show (0 : Nat) = if (1 : Nat) = 1 then 0 else q.val
    rw [if_pos rfl]

/-! ## The vector unit's spelling -/

/-- The array minus its lane maximum, the maximum recast as a column and spread back over the lanes. -/
def vectorShift {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩) :
    FVec Ideal (⟨2, ![M, C]⟩ : Shape) .f32 :=
  subf L (broadcastTo ⟨2, ![M, C]⟩ (shapeCast ⟨2, ![M, 1]⟩ (multiReduction .maximumf [1] (⟨1, ![M]⟩ : Shape) L 0xFF800000#32 hr hφ hmax) hc) hb)

/-- The shifted array minus the logarithm of the lane sum of its exponential, again as a column spread back. -/
def vectorForm {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    FVec Ideal (⟨2, ![M, C]⟩ : Shape) .f32 :=
  subf (vectorShift L hr hφ hmax hc hb)
    (broadcastTo ⟨2, ![M, C]⟩ (log (shapeCast ⟨2, ![M, 1]⟩
      (multiReduction .add [1] (⟨1, ![M]⟩ : Shape) (exp (vectorShift L hr hφ hmax hc hb)) 0x00000000#32 hr hφ hadd) hc)) hb)

theorem vectorShift_apply {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩)
    (p : Fin M) (c : Fin C) :
    vectorShift L hr hφ hmax hc hb (ix2 p c) = L (ix2 p c) - rowMax fun k => L (ix2 p k) := by
  unfold vectorShift
  rw [subf_apply, broadcastTo_a1_ab_apply, shapeCast_a_a1_apply, laneMax_apply]

/-- The vector unit's spelling, at entry (p, q), is the logarithm of the softmax of row p at q. -/
theorem vectorForm_apply {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) :
    vectorForm L hr hφ hmax hadd hc hb (ix2 p q) = logSoftmax (fun c => L (ix2 p c)) q := by
  have hsum : multiReduction .add [1] (⟨1, ![M]⟩ : Shape) (exp (vectorShift L hr hφ hmax hc hb)) 0x00000000#32 hr hφ hadd (ix1 p)
      = ∑ k : Fin C, Ideal.exp (L (ix2 p k) - rowMax fun c => L (ix2 p c)) := by
    rw [laneSum_apply]
    exact Finset.sum_congr rfl fun k _ => congrArg Ideal.exp (vectorShift_apply L hr hφ hmax hc hb p k)
  unfold vectorForm
  rw [subf_apply, vectorShift_apply, broadcastTo_a1_ab_apply]
  show _ - Ideal.log (shapeCast ⟨2, ![M, 1]⟩
    (multiReduction .add [1] (⟨1, ![M]⟩ : Shape) (exp (vectorShift L hr hφ hmax hc hb)) 0x00000000#32 hr hφ hadd) hc (ix2 p (0 : Fin 1))) = _
  rw [shapeCast_a_a1_apply, hsum]
  rfl

/-! ## The host's spelling -/

/-- The array minus its row maximum: the maximum-reduce, one more maximum against −∞ everywhere, placed on a column
    and spread back over the lanes. -/
def hostShift {M C : Nat} (x : FVec Ideal (⟨2, ![M, C]⟩ : Shape) .f32)
    (h' : (⟨2, ![M, C]⟩ : Shape).ReducesTo [1] (⟨1, ![M]⟩ : Shape)) (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) :
    FVec Ideal (⟨2, ![M, C]⟩ : Shape) .f32 :=
  subf x (broadcastInDim (⟨2, ![M, C]⟩ : Shape) ![0, 1] b2 (broadcastInDim (⟨2, ![M, 1]⟩ : Shape) ![0] b1
    (maximumf (broadcastInDim (⟨1, ![M]⟩ : Shape) ![] b0 (constant (F := Ideal) (⟨0, ![]⟩ : Shape) .f32 0xFF800000#32))
      (Host.reduce FloatOps.maximumf x (constant (F := Ideal) (⟨0, ![]⟩ : Shape) .f32 0xFF800000#32) h' hu))))

/-- The shifted array minus the logarithm of the row sum of its exponential, on a column spread back. -/
def hostForm {M C : Nat} (x : FVec Ideal (⟨2, ![M, C]⟩ : Shape) .f32)
    (h' : (⟨2, ![M, C]⟩ : Shape).ReducesTo [1] (⟨1, ![M]⟩ : Shape)) (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) :
    FVec Ideal (⟨2, ![M, C]⟩ : Shape) .f32 :=
  subf (hostShift x h' hu b0 b1 b2)
    (broadcastInDim (⟨2, ![M, C]⟩ : Shape) ![0, 1] b2 (Host.log (broadcastInDim (⟨2, ![M, 1]⟩ : Shape) ![0] b1
      (Host.reduceAdd (Host.exp (hostShift x h' hu b0 b1 b2)) (constant (F := Ideal) (⟨0, ![]⟩ : Shape) .f32 0x00000000#32) h' hu))))

theorem hostShift_apply {M C : Nat} (x : FVec Ideal (⟨2, ![M, C]⟩ : Shape) .f32)
    (h' : (⟨2, ![M, C]⟩ : Shape).ReducesTo [1] (⟨1, ![M]⟩ : Shape)) (hr : (⟨2, ![M, C]⟩ : Shape).Reduces [1] (⟨1, ![M]⟩ : Shape))
    (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) (p : Fin M) (c : Fin C) :
    hostShift x h' hu b0 b1 b2 (ix2 p c) = x (ix2 p c) - rowMax fun k => x (ix2 p k) := by
  unfold hostShift
  rw [subf_apply, spread_col_apply, spread_vec_col_apply, maximumf_apply, spread_scalar_apply, hostMax_apply x h' hr hu p]
  exact congrArg (x (ix2 p c) - ·) (max_negInf_rowMax _)

/-- The host's spelling, at entry (p, q), is the logarithm of the softmax of row p at q. -/
theorem hostForm_apply {M C : Nat} (x : FVec Ideal (⟨2, ![M, C]⟩ : Shape) .f32)
    (h' : (⟨2, ![M, C]⟩ : Shape).ReducesTo [1] (⟨1, ![M]⟩ : Shape)) (hr : (⟨2, ![M, C]⟩ : Shape).Reduces [1] (⟨1, ![M]⟩ : Shape))
    (hu : 0 < (⟨0, ![]⟩ : Shape).numel)
    (b0 : (⟨0, ![]⟩ : Shape).BroadcastsInDim (⟨1, ![M]⟩ : Shape) ![])
    (b1 : (⟨1, ![M]⟩ : Shape).BroadcastsInDim (⟨2, ![M, 1]⟩ : Shape) ![0])
    (b2 : (⟨2, ![M, 1]⟩ : Shape).BroadcastsInDim (⟨2, ![M, C]⟩ : Shape) ![0, 1]) (p : Fin M) (q : Fin C) :
    hostForm x h' hu b0 b1 b2 (ix2 p q) = logSoftmax (fun c => x (ix2 p c)) q := by
  have hsum : Host.reduceAdd (Host.exp (hostShift x h' hu b0 b1 b2)) (constant (F := Ideal) (⟨0, ![]⟩ : Shape) .f32 0x00000000#32) h' hu (ix1 p)
      = ∑ k : Fin C, Ideal.exp (x (ix2 p k) - rowMax fun c => x (ix2 p c)) := by
    rw [hostSum_apply _ h' hr hu p]
    exact Finset.sum_congr rfl fun k _ => congrArg Ideal.exp (hostShift_apply x h' hr hu b0 b1 b2 p k)
  unfold hostForm
  rw [subf_apply, hostShift_apply x h' hr hu b0 b1 b2 p q, spread_col_apply]
  show _ - Ideal.log (broadcastInDim (⟨2, ![M, 1]⟩ : Shape) ![0] b1
    (Host.reduceAdd (Host.exp (hostShift x h' hu b0 b1 b2)) (constant (F := Ideal) (⟨0, ![]⟩ : Shape) .f32 0x00000000#32) h' hu) (ix2 p (0 : Fin 1))) = _
  rw [spread_vec_col_apply, hsum]
  rfl

end Cert.LogSoftmax

end
-- ==== Proof.LibAttention.lean ====
/-
  Scaled dot-product attention over heads of 64 columns, and the row projections around it, as whole-array functions
  read one entry at a time at the exact (extended-real) values, for arbitrary extents.

  `proj x w` is a batch of row blocks against the rows of a weight,  out(b, n, e) = Σ_i x(b, n, i) · w(e, i)  (`proj2` the
  same for a matrix of rows).  `attnOf Q K V cst` is attention with the columns grouped in heads of 64: within batch b
  and the head of column c, query row n is scored against every key row k,
      z(k) = (Σ_d Q(b, n, 64·(c / 64) + d) · K(b, k, 64·(c / 64) + d)) · cst,
  the scores become softmax weights (the maximum folded from −∞, the exponentials divided by their sum), and
      attnOf(b, n, c) = Σ_k softmax(z)(k) · V(b, k, c).
  The block lemmas say when an entry of a stage computed on blocks of rows and columns is the corresponding entry of the
  stage on the whole arrays: a projection entry sees its operand only through its own row; an attention entry sees the
  queries through its own row within its head's columns, the keys through every row within those columns, and the
  values through its own column.  Only finite sums, products, one subtraction, one exponential and one division per
  entry occur; no term is moved across a sum, so nothing here needs the entries to be finite.
-/
import Idealize.ShloMosaic.Lib.ValueIdx
import Idealize.ShloMosaic.PureOps.Ideal.Laws
import proofs.«144489_j31301721653741_2_alg».proof.Proof.LibLogSoftmax

noncomputable section

open scoped BigOperators

namespace Cert.Attn

open Idealize.ShloMosaic Idealize.ShloMosaic.ValueIdx Cert.LogSoftmax

/-- A batch of row blocks against the rows of a weight:  out(b, n, e) = Σ_i x(b, n, i) · w(e, i). -/
def proj {B N K E : Nat} (x : (⟨3, ![B, N, K]⟩ : Shape).Idx → EReal) (w : (⟨2, ![E, K]⟩ : Shape).Idx → EReal) :
    (⟨3, ![B, N, E]⟩ : Shape).Idx → EReal :=
  fun j => ∑ i : Fin K, x (ix3 (j 0) (j 1) i) * w (ix2 (j 2) i)

/-- The same for a matrix of rows:  out(p, e) = Σ_i a(p, i) · w(e, i). -/
def proj2 {M K E : Nat} (a : (⟨2, ![M, K]⟩ : Shape).Idx → EReal) (w : (⟨2, ![E, K]⟩ : Shape).Idx → EReal) :
    (⟨2, ![M, E]⟩ : Shape).Idx → EReal :=
  fun j => ∑ i : Fin K, a (ix2 (j 0) i) * w (ix2 (j 1) i)

/-- An entry of `proj` on a block is the entry of `proj` on the whole when the block's row is the whole's row and the
    weight rows agree. -/
theorem proj_block {B N K E B' N' E' : Nat} (x : (⟨3, ![B, N, K]⟩ : Shape).Idx → EReal) (w : (⟨2, ![E, K]⟩ : Shape).Idx → EReal)
    (x' : (⟨3, ![B', N', K]⟩ : Shape).Idx → EReal) (w' : (⟨2, ![E', K]⟩ : Shape).Idx → EReal)
    (y : (⟨3, ![B', N', E']⟩ : Shape).Idx) (i : (⟨3, ![B, N, E]⟩ : Shape).Idx)
    (hx : ∀ k : Fin K, x' (ix3 (y 0) (y 1) k) = x (ix3 (i 0) (i 1) k))
    (hw : ∀ k : Fin K, w' (ix2 (y 2) k) = w (ix2 (i 2) k)) :
    proj x' w' y = proj x w i := by
  unfold proj
  exact Finset.sum_congr rfl fun k _ => by rw [hx k, hw k]

theorem proj2_block {M K E M' E' : Nat} (a : (⟨2, ![M, K]⟩ : Shape).Idx → EReal) (w : (⟨2, ![E, K]⟩ : Shape).Idx → EReal)
    (a' : (⟨2, ![M', K]⟩ : Shape).Idx → EReal) (w' : (⟨2, ![E', K]⟩ : Shape).Idx → EReal)
    (y : (⟨2, ![M', E']⟩ : Shape).Idx) (i : (⟨2, ![M, E]⟩ : Shape).Idx)
    (ha : ∀ k : Fin K, a' (ix2 (y 0) k) = a (ix2 (i 0) k))
    (hw : ∀ k : Fin K, w' (ix2 (y 1) k) = w (ix2 (i 1) k)) :
    proj2 a' w' y = proj2 a w i := by
  unfold proj2
  exact Finset.sum_congr rfl fun k _ => by rw [ha k, hw k]

/-- The softmax weight of position k of a row of scores. -/
def softmaxW {C : Nat} (z : Fin C → EReal) (k : Fin C) : EReal :=
  Ideal.div (Ideal.exp (z k - rowMax z)) (∑ k' : Fin C, Ideal.exp (z k' - rowMax z))

/-- Column d of the head (group of 64 columns) that column c belongs to. -/
def hcol {D : Nat} (c : Fin D) (d : Fin 64) : Fin D := ⟨((c.val / 64) * 64 + d.val) % D, Nat.mod_lt _ c.pos⟩

/-- The scores of query row (b, n) against every key row, within the head of column c. -/
def scores {B M N D : Nat} (Q : (⟨3, ![B, M, D]⟩ : Shape).Idx → EReal) (K : (⟨3, ![B, N, D]⟩ : Shape).Idx → EReal) (cst : EReal)
    (b : Fin B) (n : Fin M) (c : Fin D) : Fin N → EReal :=
  fun k => (∑ d : Fin 64, Q (ix3 b n (hcol c d)) * K (ix3 b k (hcol c d))) * cst

/-- Attention: entry (b, n, c) is the softmax-weighted sum of column c of the value rows of batch b. -/
def attnOf {B M N D : Nat} (Q : (⟨3, ![B, M, D]⟩ : Shape).Idx → EReal) (K V : (⟨3, ![B, N, D]⟩ : Shape).Idx → EReal) (cst : EReal) :
    (⟨3, ![B, M, D]⟩ : Shape).Idx → EReal :=
  fun j => ∑ k : Fin N, softmaxW (scores Q K cst (j 0) (j 1) (j 2)) k * V (ix3 (j 0) k (j 2))

/-- An entry of attention on blocks is the entry on the whole arrays when the query row, the key rows and the value
    column of the block are those of the whole, within the entry's head. -/
theorem attnOf_block {B M N D B' M' D' : Nat}
    (Q : (⟨3, ![B, M, D]⟩ : Shape).Idx → EReal) (K V : (⟨3, ![B, N, D]⟩ : Shape).Idx → EReal)
    (Q' : (⟨3, ![B', M', D']⟩ : Shape).Idx → EReal) (K' V' : (⟨3, ![B', N, D']⟩ : Shape).Idx → EReal) (cst : EReal)
    (y : (⟨3, ![B', M', D']⟩ : Shape).Idx) (i : (⟨3, ![B, M, D]⟩ : Shape).Idx)
    (hq : ∀ d : Fin 64, Q' (ix3 (y 0) (y 1) (hcol (y 2) d)) = Q (ix3 (i 0) (i 1) (hcol (i 2) d)))
    (hk : ∀ (k : Fin N) (d : Fin 64), K' (ix3 (y 0) k (hcol (y 2) d)) = K (ix3 (i 0) k (hcol (i 2) d)))
    (hv : ∀ k : Fin N, V' (ix3 (y 0) k (y 2)) = V (ix3 (i 0) k (i 2))) :
    attnOf Q' K' V' cst y = attnOf Q K V cst i := by
  have hs : scores Q' K' cst (y 0) (y 1) (y 2) = scores Q K cst (i 0) (i 1) (i 2) := by
    funext k
    unfold scores
    refine congrArg (· * cst) (Finset.sum_congr rfl fun d _ => ?_)
    rw [hq d, hk k d]
  unfold attnOf
  rw [hs]
  exact Finset.sum_congr rfl fun k _ => by rw [hv k]

end Cert.Attn

end
-- ==== Proof.Spec.lean ====
/-
  Multi-head self-attention over a batch of sequences, as one function of its three arguments, entry by entry,
  at the exact (extended-real) values.

  x is a 4×2048×1024 array of token rows, w a 3072×1024 fused projection weight, wo a 1024×1024 output weight.
  The fused weight's rows are grouped by head: head h owns rows 192·h … 192·h+191, the first 64 of them producing
  the head's query columns, the next 64 its key columns, the last 64 its value columns.  Writing column
  c = 64·h + d of a 1024-wide activation, part s ∈ {0,1,2} of the projection is
      part s (b, n, c) = Σ_i x(b, n, i) · w(192·(c / 64) + 64·s + c % 64, i).
  The three parts are the queries, keys and values of attention over 16 heads of 64 columns with scale 1/8, and the
  result is the projection of the attention array by wo:  out(b, n, e) = Σ_c attn(b, n, c) · wo(e, c).
-/
import proofs.«144489_j31301721653741_2_alg».proof.Proof.LibAttention

noncomputable section

open scoped BigOperators

namespace Cert.Attn

open Idealize.ShloMosaic Idealize.ShloMosaic.ValueIdx

/-- The activations' shape, the fused weight's and the output weight's. -/
abbrev A3 : Shape := ⟨3, ![4, 2048, 1024]⟩
abbrev W3 : Shape := ⟨2, ![3072, 1024]⟩
abbrev WO : Shape := ⟨2, ![1024, 1024]⟩

/-- The row of the fused weight that produces column c of part s (0 the queries, 1 the keys, 2 the values). -/
def wRow (s : Fin 3) (c : Fin 1024) : Fin 3072 :=
  ⟨(c.val / 64) * 192 + s.val * 64 + c.val % 64, by have := c.isLt; have := s.isLt; omega⟩

/-- Part s of the fused weight as a 1024×1024 weight of its own. -/
def wsel (s : Fin 3) (w : W3.Idx → EReal) : WO.Idx → EReal := fun r => w (ix2 (wRow s (r 0)) (r 1))

/-- Part s of the projection. -/
def part (s : Fin 3) (x : A3.Idx → EReal) (w : W3.Idx → EReal) : A3.Idx → EReal := proj x (wsel s w)

/-- The scale of the scores: the f32 word of 1/8. -/
def cst : EReal := Ideal.ofBits .f32 0x3E000000#32

/-- The whole function. -/
def G (x : A3.Idx → EReal) (w : W3.Idx → EReal) (wo : WO.Idx → EReal) : A3.Idx → EReal :=
  proj (attnOf (part 0 x w) (part 1 x w) (part 2 x w) cst) wo

end Cert.Attn

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibGatedMix.lean ====
/-
  A thresholded-logistic mixture of the rows of a small table, read one entry at a time at the exact
  (extended-real) values.

  x is an M×D array and W a T×D table.  Row p of x is scored against every row of W,
      s(p, t) = Σ_d x(p, d) · W(t, d),
  each score becomes a weight  g(s) = logistic(s),  replaced by z wherever logistic(s) < θ,  and the weighted
  rows of W are added back onto x:
      mix(x, W)(p, q) = x(p, q) + Σ_t g(s(p, t)) · W(t, q).
  Entry (p, q) sees x only through its row p.  So the mixture of a block of rows is the same block of the
  mixture of the whole array, and a computation done block of rows by block of rows agrees with one done whole.

  Two spellings of this function are identified with it, for every M, D, T:  the vector unit's (a product with the
  table contracted on its last axis into a zero accumulator, the logistic operation, a compare-and-select against
  splat scalars, a plain product into a zero accumulator, an add), and the host's (two dot_generals, the
  logistic spelt 1 / (1 + exp(−s)) over arrays that hold 1 everywhere, a compare-and-select against arrays that
  hold θ and z everywhere, an add).  Both products are plain finite sums over the extended reals and nothing here
  moves a factor across a sum, so no finiteness of the entries is used.
-/
import Idealize.ShloMosaic.Lib.ValueIdx
import Idealize.ShloMosaic.PureOps.Ideal.Laws
import proofs.«144489_j31301721653741_2_alg».proof.Proof.LibRowDot

noncomputable section

open scoped BigOperators

namespace Cert.GatedMix

open Idealize.ShloMosaic Idealize.ShloMosaic.ValueIdx Cert.RowDot

/-! ## A product with the right operand contracted on its last axis -/

/-- Entry t of (row · Wᵀ) for a T×D matrix W:  the sum over d of row(d) · W(t, d). -/
def rowDotT {D T : Nat} (row : Fin D → EReal) (W : (⟨2, ![T, D]⟩ : Shape).Idx → EReal) (t : Fin T) : EReal :=
  ∑ d : Fin D, row d * W (ix2 t d)

/-- The contraction shape of such a product is one axis. -/
theorem transposed_rank (M K N : Nat) : (DotDims.transposedRhs M K N).contr.rank = 1 := rfl

/-- The left operand's index at output index j keeps j's row. -/
theorem transposed_lhs0 {M K N : Nat} (j : (⟨2, ![M, N]⟩ : Shape).Idx) (u : (DotDims.transposedRhs M K N).contr.Idx) :
    ((DotDims.transposedRhs M K N).lhsIdx j u 0).val = (j 0).val := by
  unfold DotDims.lhsIdx
  rw [dif_neg (show ¬((0 : Fin (⟨2, ![M, K]⟩ : Shape).rank) ∈ (DotDims.transposedRhs M K N).lhsBatch) from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposed_lhs1 {M K N : Nat} (j : (⟨2, ![M, N]⟩ : Shape).Idx) (u : (DotDims.transposedRhs M K N).contr.Idx) :
    ((DotDims.transposedRhs M K N).lhsIdx j u 1).val = (u ⟨0, by rw [transposed_rank]; exact Nat.one_pos⟩).val :=
  (DotDims.transposedRhs M K N).lhsIdx_val_of_single rfl j u

/-- The right operand's row is j's column. -/
theorem transposed_rhs0 {M K N : Nat} (j : (⟨2, ![M, N]⟩ : Shape).Idx) (u : (DotDims.transposedRhs M K N).contr.Idx) :
    ((DotDims.transposedRhs M K N).rhsIdx j u 0).val = (j 1).val := by
  unfold DotDims.rhsIdx
  rw [dif_neg (show ¬((0 : Fin (⟨2, ![N, K]⟩ : Shape).rank) ∈ (DotDims.transposedRhs M K N).rhsBatch) from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposed_rhs1 {M K N : Nat} (j : (⟨2, ![M, N]⟩ : Shape).Idx) (u : (DotDims.transposedRhs M K N).contr.Idx) :
    ((DotDims.transposedRhs M K N).rhsIdx j u 1).val = (u ⟨0, by rw [transposed_rank]; exact Nat.one_pos⟩).val :=
  (DotDims.transposedRhs M K N).rhsIdx_val_of_single rfl j u

/-- The contraction's sum, re-indexed by k < K: row (j 0) of l against row (j 1) of r. -/
theorem transposed_contr_sum {M K N : Nat} (l : (⟨2, ![M, K]⟩ : Shape).Idx → EReal) (r : (⟨2, ![N, K]⟩ : Shape).Idx → EReal)
    (j : (⟨2, ![M, N]⟩ : Shape).Idx) :
    ∑ u : (DotDims.transposedRhs M K N).contr.Idx,
        l ((DotDims.transposedRhs M K N).lhsIdx j u) * r ((DotDims.transposedRhs M K N).rhsIdx j u)
      = rowDotT (rowOf l (j 0)) r (j 1) := by
  unfold rowDotT rowOf
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposed_lhs0 j _
      | ⟨1, _⟩ => exact (transposed_lhs1 j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposed_rhs0 j _
      | ⟨1, _⟩ => exact (transposed_rhs1 j _).trans hk)
  exact congrArg₂ (fun a b : EReal => a * b) (congrArg l el) (congrArg r er)

/-- The vector unit's product into the zero accumulator, at an entry. -/
theorem matmul_transposed_zero_apply {M K N : Nat} {φ₁ φ₂ : FTy} (prec : Option ContractPrecision)
    (lhs : FVec Ideal (⟨2, ![M, K]⟩ : Shape) φ₁) (rhs : FVec Ideal (⟨2, ![N, K]⟩ : Shape) φ₂) (j : (⟨2, ![M, N]⟩ : Shape).Idx) :
    FloatOps.matmul (DotDims.transposedRhs M K N) prec lhs rhs (constant (F := Ideal) (⟨2, ![M, N]⟩ : Shape) .f32 0x00000000#32) j
      = rowDotT (rowOf lhs (j 0)) rhs (j 1) := by
  rw [Ideal.matmul_constant_zero_apply]
  exact transposed_contr_sum lhs rhs j

/-- The host's dot_general, at an entry. -/
theorem dotGeneral_transposed_apply {M K N : Nat} {φ₁ φ₂ : FTy} (prec : Option ContractPrecision) (sched : HostSchedule)
    (lhs : FVec Ideal (⟨2, ![M, K]⟩ : Shape) φ₁) (rhs : FVec Ideal (⟨2, ![N, K]⟩ : Shape) φ₂) (j : (⟨2, ![M, N]⟩ : Shape).Idx) :
    FloatOps.dotGeneral (DotDims.transposedRhs M K N) prec sched lhs rhs j = rowDotT (rowOf lhs (j 0)) rhs (j 1) := by
  rw [Ideal.dotGeneral_apply]
  exact transposed_contr_sum lhs rhs j

/-! ## The mixture -/

/-- The weight of a score: its logistic, replaced by z where that is strictly below θ. -/
def gate (θ z s : EReal) : EReal :=
  Scalar.select (FloatOps.cmpf (F := Ideal) (φ := .f32) .olt (Ideal.logistic s) θ) z (Ideal.logistic s)

/-- One row of the mixture: the row plus the table's rows weighted by the gated scores of the row. -/
def mixRow {D T : Nat} (θ z : EReal) (row : Fin D → EReal) (W : (⟨2, ![T, D]⟩ : Shape).Idx → EReal) (q : Fin D) : EReal :=
  row q + ∑ t : Fin T, gate θ z (rowDotT row W t) * W (ix2 t q)

/-- The mixture of an M×D array with a T×D table: entry (p, q) is entry q of the mixture of row p. -/
def mix {M D T : Nat} (θ z : EReal) (x : (⟨2, ![M, D]⟩ : Shape).Idx → EReal) (W : (⟨2, ![T, D]⟩ : Shape).Idx → EReal) :
    (⟨2, ![M, D]⟩ : Shape).Idx → EReal :=
  fun j => mixRow θ z (rowOf x (j 0)) W (j 1)

/-- Entry (p, q) of the mixture depends on x through row p only: if row p' of x' is row p of x, the entries agree. -/
theorem mix_rows {M M' D T : Nat} (θ z : EReal) (x : (⟨2, ![M, D]⟩ : Shape).Idx → EReal) (x' : (⟨2, ![M', D]⟩ : Shape).Idx → EReal)
    (W : (⟨2, ![T, D]⟩ : Shape).Idx → EReal) (p : Fin M) (p' : Fin M') (q : Fin D)
    (h : ∀ d : Fin D, x' (ix2 p' d) = x (ix2 p d)) :
    mix θ z x' W (ix2 p' q) = mix θ z x W (ix2 p q) := by
  have hr : rowOf x' p' = rowOf x p := funext h
  show mixRow θ z (rowOf x' p') W q = mixRow θ z (rowOf x p) W q
  rw [hr]

/-- The same for whole indices: entry y of the mixture of x' is entry i of the mixture of x when row (y 0) of x' is row
    (i 0) of x and the two indices name the same column. -/
theorem mix_block {M M' D T : Nat} (θ z : EReal) (x : (⟨2, ![M, D]⟩ : Shape).Idx → EReal) (x' : (⟨2, ![M', D]⟩ : Shape).Idx → EReal)
    (W : (⟨2, ![T, D]⟩ : Shape).Idx → EReal) (y : (⟨2, ![M', D]⟩ : Shape).Idx) (i : (⟨2, ![M, D]⟩ : Shape).Idx)
    (hrow : ∀ d : Fin D, x' (ix2 (y 0) d) = x (ix2 (i 0) d)) (hcol : (i 1).val = (y 1).val) :
    mix θ z x' W y = mix θ z x W i := by
  have e0 : rowOf x' (y 0) = rowOf x (i 0) := funext hrow
  have e1 : (y 1 : Fin D) = (i 1 : Fin D) := Fin.ext hcol.symm
  show mixRow θ z (rowOf x' (y 0)) W (y 1) = mixRow θ z (rowOf x (i 0)) W (i 1)
  exact congrArg₂ (fun (r : Fin D → EReal) (q : Fin D) => mixRow θ z r W q) e0 e1

/-! ## The vector unit's spelling -/

/-- A product contracted on the table's last axis into zero, the logistic, the compare-and-select against two splat
    scalars, a plain product with the table into zero, and the add: the mixture, with θ and z the two words' values. -/
theorem vector_form {M D T : Nat} (p₁ p₂ : Option ContractPrecision) (θw zw : BitVec 32)
    (x : FVec Ideal (⟨2, ![M, D]⟩ : Shape) .f32) (W : FVec Ideal (⟨2, ![T, D]⟩ : Shape) .f32) :
    addf x (matmul (DotDims.plain M T D) p₂
        (select
          (cmpf .olt
            (logistic (matmul (DotDims.transposedRhs M D T) p₁ x W (constant (⟨2, ![M, T]⟩ : Shape) .f32 0x00000000#32)))
            (broadcast (⟨2, ![M, T]⟩ : Shape) (Scalar.ofBits (F := Ideal) .f32 θw)))
          (broadcast (⟨2, ![M, T]⟩ : Shape) (Scalar.ofBits (F := Ideal) .f32 zw))
          (logistic (matmul (DotDims.transposedRhs M D T) p₁ x W (constant (⟨2, ![M, T]⟩ : Shape) .f32 0x00000000#32))))
        W (constant (⟨2, ![M, D]⟩ : Shape) .f32 0x00000000#32))
      = mix (Ideal.ofBits .f32 θw) (Ideal.ofBits .f32 zw) x W := by
  funext j
  obtain ⟨p, q, rfl⟩ : ∃ (p : Fin M) (q : Fin D), j = ix2 p q := ⟨j 0, j 1, eq_ix2 j⟩
  rw [addf_apply]
  refine congrArg (x (ix2 p q) + ·) ?_
  refine (matmul_plain_zero_apply p₂ _ W (ix2 p q)).trans ?_
  refine Finset.sum_congr rfl fun t _ => ?_
  refine congrArg (· * W (ix2 t q)) ?_
  show Scalar.select (FloatOps.cmpf .olt (Ideal.logistic (FloatOps.matmul (DotDims.transposedRhs M D T) p₁ x W
      (constant (F := Ideal) (⟨2, ![M, T]⟩ : Shape) .f32 0x00000000#32) (ix2 p t))) (Ideal.ofBits .f32 θw)) (Ideal.ofBits .f32 zw)
      (Ideal.logistic (FloatOps.matmul (DotDims.transposedRhs M D T) p₁ x W
      (constant (F := Ideal) (⟨2, ![M, T]⟩ : Shape) .f32 0x00000000#32) (ix2 p t))) = _
  rw [matmul_transposed_zero_apply]
  rfl

/-! ## The host's spelling -/

/-- The f32 word of 1.0 is the number 1. -/
theorem one_word : Ideal.ofBits .f32 0x3F800000#32 = 1 := by
  simp [Ideal.ofBits, Ideal.ieee, -EReal.coe_mul]; norm_num

/-- Two dot_generals, the logistic spelt 1 / (1 + exp(−s)) over arrays that are 1 everywhere, the compare-and-select
    against arrays that are θ and z everywhere, and the add: the mixture. -/
theorem host_form {M D T : Nat} (p₁ p₂ : Option ContractPrecision) (θ z : EReal)
    (x : FVec Ideal (⟨2, ![M, D]⟩ : Shape) .f32) (W : FVec Ideal (⟨2, ![T, D]⟩ : Shape) .f32)
    (one one' θv zv : FVec Ideal (⟨2, ![M, T]⟩ : Shape) .f32)
    (h1 : ∀ i, one i = 1) (h1' : ∀ i, one' i = 1) (hθ : ∀ i, θv i = θ) (hz : ∀ i, zv i = z) :
    addf x (Host.dotGeneral (DotDims.plain M T D) p₂
        (select
          (cmpf .olt
            (Host.divf one (addf one' (Host.exp (Host.negf (Host.dotGeneral (DotDims.transposedRhs M D T) p₁ x W)))))
            θv)
          zv
          (Host.divf one (addf one' (Host.exp (Host.negf (Host.dotGeneral (DotDims.transposedRhs M D T) p₁ x W))))))
        W)
      = mix θ z x W := by
  funext j
  obtain ⟨p, q, rfl⟩ : ∃ (p : Fin M) (q : Fin D), j = ix2 p q := ⟨j 0, j 1, eq_ix2 j⟩
  rw [addf_apply]
  refine congrArg (x (ix2 p q) + ·) ?_
  refine (dotGeneral_plain_apply p₂ .single _ W (ix2 p q)).trans ?_
  refine Finset.sum_congr rfl fun t _ => ?_
  refine congrArg (· * W (ix2 t q)) ?_
  show Scalar.select (FloatOps.cmpf .olt
      (FloatOps.hostDivf (one (ix2 p t)) (FloatOps.addf (one' (ix2 p t)) (FloatOps.hostUnary .exp (FloatOps.hostNegf
        (FloatOps.dotGeneral (DotDims.transposedRhs M D T) p₁ .single x W (ix2 p t))))))
      (θv (ix2 p t))) (zv (ix2 p t))
      (FloatOps.hostDivf (one (ix2 p t)) (FloatOps.addf (one' (ix2 p t)) (FloatOps.hostUnary .exp (FloatOps.hostNegf
        (FloatOps.dotGeneral (DotDims.transposedRhs M D T) p₁ .single x W (ix2 p t)))))) = _
  rw [dotGeneral_transposed_apply, h1, h1', hθ, hz]
  rfl

end Cert.GatedMix

end
-- ==== Proof.Bodies.lean ====
/-
  The projection kernels' bodies as pure functions of their blocks, at the exact (extended-real) values.

  The first kernel's body takes a 1×256×1024 block of token rows and three whole 1024×1024 weights and stores, for
  each weight, the block of rows times the weight's transpose:  out(0, r, e) = Σ_i x(0, r, i) · w(e, i).  The last
  kernel's body does the same for a 512×1024 block of rows of a matrix.  A change of float format is the identity at
  the exact values and the products go into a zero accumulator, so each stored block is the projection of the block.
-/
import proofs.«144489_j31301721653741_2_alg».proof.Proof.Gen.KernelIdeal.Frame
import proofs.«144489_j31301721653741_2_alg».proof.Proof.Spec
import proofs.«144489_j31301721653741_2_alg».proof.Proof.LibGatedMix
import Idealize.ShloMosaic.Lib.Pipeline.Value

noncomputable section

open scoped BigOperators

namespace Cert.Attn.Bodies

open Idealize.ShloMosaic Idealize.ShloMosaic.ValueIdx Cert.KernelIdeal Cert.KernelIdeal.Gen Cert.Attn Cert.RowDot Cert.GatedMix

theorem hz3 : (![0, 0, 0] : Fin 3 → Nat) = fun _ => 0 := funext fun a => by fin_cases a <;> rfl
theorem hz2 : (![0, 0] : Fin 2 → Nat) = fun _ => 0 := funext fun a => by fin_cases a <;> rfl

/-- A block of rows against a weight's rows, the block carrying a leading unit axis: the projection of the block. -/
theorem rowsTimesWeight (x0 : Vec Ideal S1x256x1024 .f32) (x1 : Vec Ideal S1024x1024 .f32) (j : S1x256x1024.Idx) :
    shapeCast S1x256x1024 (truncf (F := Ideal) .bf16
      (matmul dot_S256x1024_S1024x1024_S256x1024_1_1_0_0_n_n none
        (truncf (F := Ideal) .bf16 (shapeCast S256x1024 x0 shapeCasts_S1x256x1024_S256x1024) bitsLt_bf16_f32)
        (truncf (F := Ideal) .bf16 (shapeCast S1024x1024 x1 shapeCasts_S1024x1024_S1024x1024) bitsLt_bf16_f32)
        (constant S256x1024 .f32 0x00000000#32)) bitsLt_bf16_f32) shapeCasts_S256x1024_S1x256x1024 j
      = proj x0 x1 j := by
  obtain ⟨u, r, e, rfl⟩ : ∃ (u : Fin 1) (r : Fin 256) (e : Fin 1024), j = ix3 u r e := ⟨j 0, j 1, j 2, eq_ix3 j⟩
  have hu : u = 0 := Fin.ext (by omega)
  subst hu
  refine (shapeCast_apply _ shapeCasts_S256x1024_S1x256x1024 (ix3 0 r e) (ix2 r e) (by
    rw [Shape.rowMajor_val_two, Shape.rowMajor_val_three]; show r.val * 1024 + e.val = ((0 : Fin 1).val * 256 + r.val) * 1024 + e.val; simp)).trans ?_
  refine (matmul_transposed_zero_apply none _ _ (ix2 r e)).trans ?_
  unfold rowDotT rowOf proj
  refine Finset.sum_congr rfl fun k _ => ?_
  refine congrArg₂ (fun a b : EReal => a * b) ?_ ?_
  · exact shapeCast_apply x0 shapeCasts_S1x256x1024_S256x1024 (ix2 r k) (ix3 0 r k) (by
      rw [Shape.rowMajor_val_two, Shape.rowMajor_val_three]; show ((0 : Fin 1).val * 256 + r.val) * 1024 + k.val = r.val * 1024 + k.val; simp)
  · exact congrFun (shapeCast_self x1 shapeCasts_S1024x1024_S1024x1024) (ix2 e k)

theorem out0_4_eq (x0 : Vec Ideal S1x256x1024 .f32) (x1 x2 x3 : Vec Ideal S1024x1024 .f32) :
    out0_4 (F := Ideal) x0 x1 x2 x3 = proj x0 x1 := by
  unfold out0_4
  rw [View.canon_unit_zero hz3]
  simp only [View.ld_unit_zero (S := S1x256x1024) hz3, View.ld_unit_zero (S := S1024x1024) hz2]
  exact funext fun j => rowsTimesWeight x0 x1 j

theorem out0_5_eq (x0 : Vec Ideal S1x256x1024 .f32) (x1 x2 x3 : Vec Ideal S1024x1024 .f32) :
    out0_5 (F := Ideal) x0 x1 x2 x3 = proj x0 x2 := by
  unfold out0_5
  rw [View.canon_unit_zero hz3]
  simp only [View.ld_unit_zero (S := S1x256x1024) hz3, View.ld_unit_zero (S := S1024x1024) hz2]
  exact funext fun j => rowsTimesWeight x0 x2 j

theorem out0_6_eq (x0 : Vec Ideal S1x256x1024 .f32) (x1 x2 x3 : Vec Ideal S1024x1024 .f32) :
    out0_6 (F := Ideal) x0 x1 x2 x3 = proj x0 x3 := by
  unfold out0_6
  rw [View.canon_unit_zero hz3]
  simp only [View.ld_unit_zero (S := S1x256x1024) hz3, View.ld_unit_zero (S := S1024x1024) hz2]
  exact funext fun j => rowsTimesWeight x0 x3 j

/-- The last kernel's body: a 512×1024 block of rows against the output weight's rows. -/
theorem out2_2_eq (x0 : Vec Ideal S512x1024 .bf16) (x1 : Vec Ideal S1024x1024 .f32) :
    out2_2 (F := Ideal) x0 x1 = proj2 x0 x1 := by
  unfold out2_2
  rw [View.canon_unit_zero hz2]
  simp only [View.ld_unit_zero (S := S512x1024) hz2, View.ld_unit_zero (S := S1024x1024) hz2]
  funext j
  obtain ⟨r, e, rfl⟩ : ∃ (r : Fin 512) (e : Fin 1024), j = ix2 r e := ⟨j 0, j 1, eq_ix2 j⟩
  unfold k2_pay1
  refine (matmul_transposed_zero_apply none _ _ (ix2 r e)).trans ?_
  unfold rowDotT rowOf proj2
  refine Finset.sum_congr rfl fun k _ => ?_
  refine congrArg₂ (fun a b : EReal => a * b) ?_ rfl
  exact congrFun (shapeCast_self x0 shapeCasts_S512x1024_S512x1024) (ix2 r k)

end Cert.Attn.Bodies

end
-- ==== Proof.Region0.lean ====
/-
  The projection kernel's three output arrays after its region, each as one function of the arrays the region finds.

  The grid is (batch, row tile): point (b, s) stages rows 256·s … 256·s+255 of batch b of the token array and the three
  whole weights, and writes back, for each weight, that block of rows times the weight's transpose.  Each written
  block is the same block of ONE whole-array function — the projection of the whole token array by the weight —
  because an entry of the projection sees the tokens only through its own row; the 32 blocks tile the array, so the
  array ends holding that function everywhere.
-/
import proofs.«144489_j31301721653741_2_alg».proof.Proof.Bodies

set_option maxRecDepth 16384

noncomputable section

open scoped BigOperators

namespace Cert.Attn.R0

open Idealize.ShloMosaic Idealize.ShloMosaic.TcCoe Idealize.ShloMosaic.ValueIdx Idealize.SL.Sem
open Cert.KernelIdeal Cert.KernelIdeal.Gen Cert.Attn Cert.Attn.Bodies
open Idealize.ShloMosaic.Pipeline (Dat Cfg Window)

variable (V : (c : Dev nD) → (b : Ref sig .tc) → Buf (Elt Ideal) ((c : Thread nD τ).loc b))

/-! ## Output window 4: the projection by weight window 1 -/

/-- The printed index maps over the grid: the token block and output block 4 move together over (batch, row tile),
    their last block index is 0, and the weight's block is the whole weight. -/
theorem idx_facts4 : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_4.index t (0 : Fin 3) < 4 ∧ win0_4.index t (1 : Fin 3) < 8 :=
  (by decide +kernel : ∀ t : Fin grid0.N, _)

/-- Every (batch, row tile) is some grid point's output block. -/
theorem idx_onto4 : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-- What point t writes back is block t of the projection of the whole token array by the whole weight. -/
theorem flushed4_eq (c : Dev nD) (t : Fin cfg0.N) :
    (dat0 V c).flushed 4 t = ((cfg0.win 4).blk t).view.read (Elt Ideal) (proj (V c main_arg0) (V c main_v3)) := by
  show (cfg0.win 4).cut (grid0.coords t) ((dat0 V c).after 4 t) = _
  rw [after0_4, out0_4_eq]
  obtain ⟨e0, e1, e2, e3, e4, e5, -, -⟩ := idx_facts4 t
  funext y
  show proj (iblk0 V c 0 t) (iblk0 V c 1 t) y = proj (V c main_arg0) (V c main_v3) (((cfg0.win 4).blk t).view.emb y)
  refine proj_block (V c main_arg0) (V c main_v3) (iblk0 V c 0 t) (iblk0 V c 1 t) y _ (fun k => ?_) (fun k => ?_)
  · show V c main_arg0 (((cfg0.win 0).blk t).view.emb (ix3 (y 0) (y 1) k)) = _
    refine congrArg (V c main_arg0) (funext fun a => Fin.ext ?_)
    match a with
    | ⟨0, _⟩ => show win0_0.index t (0 : Fin 3) * 1 + 1 * (y 0).val = win0_4.index t (0 : Fin 3) * 1 + 1 * (y 0).val; omega
    | ⟨1, _⟩ => show win0_0.index t (1 : Fin 3) * 256 + 1 * (y 1).val = win0_4.index t (1 : Fin 3) * 256 + 1 * (y 1).val; omega
    | ⟨2, _⟩ => show win0_0.index t (2 : Fin 3) * 1024 + 1 * k.val = k.val; omega
  · show V c main_v3 (((cfg0.win 1).blk t).view.emb (ix2 (y 2) k)) = _
    refine congrArg (V c main_v3) (funext fun a => Fin.ext ?_)
    match a with
    | ⟨0, _⟩ => show win0_1.index t (0 : Fin 2) * 1024 + 1 * (y 2).val = win0_4.index t (2 : Fin 3) * 1024 + 1 * (y 2).val; omega
    | ⟨1, _⟩ => show win0_1.index t (1 : Fin 2) * 1024 + 1 * k.val = k.val; omega

/-- An index of the array is in point t's block iff each coordinate is in the block's range on its axis. -/
theorem mem_blk4 (t : Fin cfg0.N) (i : S4x2048x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v10_0).slice (win0_4.rect t)).set ↔ _
  rw [View.set_slice_whole, Rect.mem_set_unit]
  exact Iff.rfl

/-- The output blocks cover the array: row n of batch b is in the block of (b, n / 256). -/
theorem cover4 (i : S4x2048x1024.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto4 ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-- The array after the region: the projection of the token array by the weight, entry by entry. -/
theorem final4 (c : Dev nD) : (dat0 V c).arrAt 4 cfg0.N = proj (V c main_arg0) (V c main_v3) :=
  (dat0 V c).arrAt_eq_of_cover 4 _ (fun t _ => flushed4_eq V c t) cover4

/-! ## Output window 5: the projection by weight window 2 -/

/-- The printed index maps over the grid: the token block and output block 5 move together over (batch, row tile),
    their last block index is 0, and the weight's block is the whole weight. -/
theorem idx_facts5 : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_2.index t (0 : Fin 2) = 0 ∧ win0_2.index t (1 : Fin 2) = 0
    ∧ win0_5.index t (0 : Fin 3) < 4 ∧ win0_5.index t (1 : Fin 3) < 8 :=
  (by decide +kernel : ∀ t : Fin grid0.N, _)

/-- Every (batch, row tile) is some grid point's output block. -/
theorem idx_onto5 : ∀ (q0 : Fin 4) (q1 : Fin 8), ∃ t : Fin cfg0.N, win0_5.index t = ![q0.val, q1.val, 0] :=
  (by decide +kernel : ∀ (q0 : Fin 4) (q1 : Fin 8), ∃ t : Fin grid0.N, win0_5.index t = ![q0.val, q1.val, 0])

/-- What point t writes back is block t of the projection of the whole token array by the whole weight. -/
theorem flushed5_eq (c : Dev nD) (t : Fin cfg0.N) :
    (dat0 V c).flushed 5 t = ((cfg0.win 5).blk t).view.read (Elt Ideal) (proj (V c main_arg0) (V c main_v6)) := by
  show (cfg0.win 5).cut (grid0.coords t) ((dat0 V c).after 5 t) = _
  rw [after0_5, out0_5_eq]
  obtain ⟨e0, e1, e2, e3, e4, e5, -, -⟩ := idx_facts5 t
  funext y
  show proj (iblk0 V c 0 t) (iblk0 V c 2 t) y = proj (V c main_arg0) (V c main_v6) (((cfg0.win 5).blk t).view.emb y)
  refine proj_block (V c main_arg0) (V c main_v6) (iblk0 V c 0 t) (iblk0 V c 2 t) y _ (fun k => ?_) (fun k => ?_)
  · show V c main_arg0 (((cfg0.win 0).blk t).view.emb (ix3 (y 0) (y 1) k)) = _
    refine congrArg (V c main_arg0) (funext fun a => Fin.ext ?_)
    match a with
    | ⟨0, _⟩ => show win0_0.index t (0 : Fin 3) * 1 + 1 * (y 0).val = win0_5.index t (0 : Fin 3) * 1 + 1 * (y 0).val; omega
    | ⟨1, _⟩ => show win0_0.index t (1 : Fin 3) * 256 + 1 * (y 1).val = win0_5.index t (1 : Fin 3) * 256 + 1 * (y 1).val; omega
    | ⟨2, _⟩ => show win0_0.index t (2 : Fin 3) * 1024 + 1 * k.val = k.val; omega
  · show V c main_v6 (((cfg0.win 2).blk t).view.emb (ix2 (y 2) k)) = _
    refine congrArg (V c main_v6) (funext fun a => Fin.ext ?_)
    match a with
    | ⟨0, _⟩ => show win0_2.index t (0 : Fin 2) * 1024 + 1 * (y 2).val = win0_5.index t (2 : Fin 3) * 1024 + 1 * (y 2).val; omega
    | ⟨1, _⟩ => show win0_2.index t (1 : Fin 2) * 1024 + 1 * k.val = k.val; omega

/-- An index of the array is in point t's block iff each coordinate is in the block's range on its axis. -/
theorem mem_blk5 (t : Fin cfg0.N) (i : S4x2048x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v10_1).slice (win0_5.rect t)).set ↔ _
  rw [View.set_slice_whole, Rect.mem_set_unit]
  exact Iff.rfl

/-- The output blocks cover the array: row n of batch b is in the block of (b, n / 256). -/
theorem cover5 (i : S4x2048x1024.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, ht⟩ := idx_onto5 ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- The array after the region: the projection of the token array by the weight, entry by entry. -/
theorem final5 (c : Dev nD) : (dat0 V c).arrAt 5 cfg0.N = proj (V c main_arg0) (V c main_v6) :=
  (dat0 V c).arrAt_eq_of_cover 5 _ (fun t _ => flushed5_eq V c t) cover5

/-! ## Output window 6: the projection by weight window 3 -/

/-- The printed index maps over the grid: the token block and output block 6 move together over (batch, row tile),
    their last block index is 0, and the weight's block is the whole weight. -/
theorem idx_facts6 : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_3.index t (0 : Fin 2) = 0 ∧ win0_3.index t (1 : Fin 2) = 0
    ∧ win0_6.index t (0 : Fin 3) < 4 ∧ win0_6.index t (1 : Fin 3) < 8 :=
  (by decide +kernel : ∀ t : Fin grid0.N, _)

/-- Every (batch, row tile) is some grid point's output block. -/
theorem idx_onto6 : ∀ (q0 : Fin 4) (q1 : Fin 8), ∃ t : Fin cfg0.N, win0_6.index t = ![q0.val, q1.val, 0] :=
  (by decide +kernel : ∀ (q0 : Fin 4) (q1 : Fin 8), ∃ t : Fin grid0.N, win0_6.index t = ![q0.val, q1.val, 0])

/-- What point t writes back is block t of the projection of the whole token array by the whole weight. -/
theorem flushed6_eq (c : Dev nD) (t : Fin cfg0.N) :
    (dat0 V c).flushed 6 t = ((cfg0.win 6).blk t).view.read (Elt Ideal) (proj (V c main_arg0) (V c main_v9)) := by
  show (cfg0.win 6).cut (grid0.coords t) ((dat0 V c).after 6 t) = _
  rw [after0_6, out0_6_eq]
  obtain ⟨e0, e1, e2, e3, e4, e5, -, -⟩ := idx_facts6 t
  funext y
  show proj (iblk0 V c 0 t) (iblk0 V c 3 t) y = proj (V c main_arg0) (V c main_v9) (((cfg0.win 6).blk t).view.emb y)
  refine proj_block (V c main_arg0) (V c main_v9) (iblk0 V c 0 t) (iblk0 V c 3 t) y _ (fun k => ?_) (fun k => ?_)
  · show V c main_arg0 (((cfg0.win 0).blk t).view.emb (ix3 (y 0) (y 1) k)) = _
    refine congrArg (V c main_arg0) (funext fun a => Fin.ext ?_)
    match a with
    | ⟨0, _⟩ => show win0_0.index t (0 : Fin 3) * 1 + 1 * (y 0).val = win0_6.index t (0 : Fin 3) * 1 + 1 * (y 0).val; omega
    | ⟨1, _⟩ => show win0_0.index t (1 : Fin 3) * 256 + 1 * (y 1).val = win0_6.index t (1 : Fin 3) * 256 + 1 * (y 1).val; omega
    | ⟨2, _⟩ => show win0_0.index t (2 : Fin 3) * 1024 + 1 * k.val = k.val; omega
  · show V c main_v9 (((cfg0.win 3).blk t).view.emb (ix2 (y 2) k)) = _
    refine congrArg (V c main_v9) (funext fun a => Fin.ext ?_)
    match a with
    | ⟨0, _⟩ => show win0_3.index t (0 : Fin 2) * 1024 + 1 * (y 2).val = win0_6.index t (2 : Fin 3) * 1024 + 1 * (y 2).val; omega
    | ⟨1, _⟩ => show win0_3.index t (1 : Fin 2) * 1024 + 1 * k.val = k.val; omega

/-- An index of the array is in point t's block iff each coordinate is in the block's range on its axis. -/
theorem mem_blk6 (t : Fin cfg0.N) (i : S4x2048x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v10_2).slice (win0_6.rect t)).set ↔ _
  rw [View.set_slice_whole, Rect.mem_set_unit]
  exact Iff.rfl

/-- The output blocks cover the array: row n of batch b is in the block of (b, n / 256). -/
theorem cover6 (i : S4x2048x1024.Idx) : ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  obtain ⟨t, ht⟩ := idx_onto6 ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- The array after the region: the projection of the token array by the weight, entry by entry. -/
theorem final6 (c : Dev nD) : (dat0 V c).arrAt 6 cfg0.N = proj (V c main_arg0) (V c main_v9) :=
  (dat0 V c).arrAt_eq_of_cover 6 _ (fun t _ => flushed6_eq V c t) cover6

end Cert.Attn.R0

end
-- ==== Proof.Region1.lean ====
/-
  The attention kernel's array after its region, as one function of the arrays the region finds.

  The grid is (batch, head pair, query tile): point (b, p, s) stages query rows 512·s … 512·s+511 of columns
  128·p … 128·p+127 of batch b, all 2048 key rows and value rows of the same columns, and writes back the attention of
  that block.  An entry of attention sees the queries only through its own row within its head's 64 columns, the keys
  through all their rows within those columns, and the values through its own column; a head's 64 columns lie inside
  one 128-column block, so each written block is the same block of the attention of the whole arrays.  The 128 blocks
  tile the 4×2048×1024 array.
-/
import proofs.«144489_j31301721653741_2_alg».proof.Proof.Gen.KernelIdeal.Frame
import proofs.«144489_j31301721653741_2_alg».proof.Proof.Spec
import Idealize.ShloMosaic.Lib.Pipeline.Value

set_option maxRecDepth 16384

noncomputable section

open scoped BigOperators

namespace Cert.Attn.R1

open Idealize.ShloMosaic Idealize.ShloMosaic.TcCoe Idealize.ShloMosaic.ValueIdx Idealize.SL.Sem
open Cert.KernelIdeal Cert.KernelIdeal.Gen Cert.Attn
open Idealize.ShloMosaic.Pipeline (Dat Cfg Window)

variable (V : (c : Dev nD) → (b : Ref sig .tc) → Buf (Elt Ideal) ((c : Thread nD τ).loc b))

/-- The printed index maps over the grid: the query block and the output block move together over (batch, query
    tile, head pair); the key and value blocks follow (batch, head pair) and hold every row. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = win1_3.index t (2 : Fin 3)
    ∧ win1_2.index t (0 : Fin 3) = win1_3.index t (0 : Fin 3) ∧ win1_2.index t (1 : Fin 3) = 0
    ∧ win1_2.index t (2 : Fin 3) = win1_3.index t (2 : Fin 3)
    ∧ win1_3.index t (0 : Fin 3) < 4 ∧ win1_3.index t (1 : Fin 3) < 4 ∧ win1_3.index t (2 : Fin 3) < 8 :=
  (by decide +kernel : ∀ t : Fin grid1.N, _)

/-- Every (batch, query tile, head pair) is some grid point's output block. -/
theorem idx_onto : ∀ (q0 : Fin 4) (q1 : Fin 4) (q2 : Fin 8), ∃ t : Fin cfg1.N, win1_3.index t = ![q0.val, q1.val, q2.val] :=
  (by decide +kernel : ∀ (q0 : Fin 4) (q1 : Fin 4) (q2 : Fin 8), ∃ t : Fin grid1.N, win1_3.index t = ![q0.val, q1.val, q2.val])

/-- What point t writes back is block t of the attention of the whole arrays, given that the body computes the
    attention of its blocks. -/
theorem flushed_eq (hbody : ∀ (x0 : Vec Ideal S1x512x128 .bf16) (x1 x2 : Vec Ideal S1x2048x128 .bf16),
      out1_3 (F := Ideal) x0 x1 x2 = attnOf x0 x1 x2 cst) (c : Dev nD) (t : Fin cfg1.N) :
    (dat1 V c).flushed 3 t = ((cfg1.win 3).blk t).view.read (Elt Ideal)
      (attnOf (V c main_v10_0) (V c main_v10_1) (V c main_v10_2) cst) := by
  show (cfg1.win 3).cut (grid1.coords t) ((dat1 V c).after 3 t) = _
  rw [after1_3, hbody]
  obtain ⟨e0, e1, e2, e3, e4, e5, e6, e7, e8, b0, b1, b2⟩ := idx_facts t
  funext y
  have hy2 : (y 2).val < 128 := (y 2).isLt
  show attnOf (iblk1 V c 0 t) (iblk1 V c 1 t) (iblk1 V c 2 t) cst y
    = attnOf (V c main_v10_0) (V c main_v10_1) (V c main_v10_2) cst (((cfg1.win 3).blk t).view.emb y)
  refine attnOf_block (V c main_v10_0) (V c main_v10_1) (V c main_v10_2) (iblk1 V c 0 t) (iblk1 V c 1 t) (iblk1 V c 2 t) cst y _
    (fun d => ?_) (fun k d => ?_) (fun k => ?_)
  · have hd := d.isLt
    show V c main_v10_0 (((cfg1.win 0).blk t).view.emb (ix3 (y 0) (y 1) (hcol (y 2) d))) = _
    refine congrArg (V c main_v10_0) (funext fun a => Fin.ext ?_)
    match a with
    | ⟨0, _⟩ => show win1_0.index t (0 : Fin 3) * 1 + 1 * (y 0).val = win1_3.index t (0 : Fin 3) * 1 + 1 * (y 0).val; omega
    | ⟨1, _⟩ => show win1_0.index t (1 : Fin 3) * 512 + 1 * (y 1).val = win1_3.index t (1 : Fin 3) * 512 + 1 * (y 1).val; omega
    | ⟨2, _⟩ =>
      show win1_0.index t (2 : Fin 3) * 128 + 1 * (((y 2).val / 64 * 64 + d.val) % 128)
        = ((win1_3.index t (2 : Fin 3) * 128 + 1 * (y 2).val) / 64 * 64 + d.val) % 1024
      omega
  · have hd := d.isLt
    show V c main_v10_1 (((cfg1.win 1).blk t).view.emb (ix3 (y 0) k (hcol (y 2) d))) = _
    refine congrArg (V c main_v10_1) (funext fun a => Fin.ext ?_)
    match a with
    | ⟨0, _⟩ => show win1_1.index t (0 : Fin 3) * 1 + 1 * (y 0).val = win1_3.index t (0 : Fin 3) * 1 + 1 * (y 0).val; omega
    | ⟨1, _⟩ => show win1_1.index t (1 : Fin 3) * 2048 + 1 * k.val = k.val; omega
    | ⟨2, _⟩ =>
      show win1_1.index t (2 : Fin 3) * 128 + 1 * (((y 2).val / 64 * 64 + d.val) % 128)
        = ((win1_3.index t (2 : Fin 3) * 128 + 1 * (y 2).val) / 64 * 64 + d.val) % 1024
      omega
  · show V c main_v10_2 (((cfg1.win 2).blk t).view.emb (ix3 (y 0) k (y 2))) = _
    refine congrArg (V c main_v10_2) (funext fun a => Fin.ext ?_)
    match a with
    | ⟨0, _⟩ => show win1_2.index t (0 : Fin 3) * 1 + 1 * (y 0).val = win1_3.index t (0 : Fin 3) * 1 + 1 * (y 0).val; omega
    | ⟨1, _⟩ => show win1_2.index t (1 : Fin 3) * 2048 + 1 * k.val = k.val; omega
    | ⟨2, _⟩ => show win1_2.index t (2 : Fin 3) * 128 + 1 * (y 2).val = win1_3.index t (2 : Fin 3) * 128 + 1 * (y 2).val; omega

/-- An index of the array is in point t's block iff each coordinate is in the block's range on its axis. -/
theorem mem_blk (t : Fin cfg1.N) (i : S4x2048x1024.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v11).slice (win1_3.rect t)).set ↔ _
  rw [View.set_slice_whole, Rect.mem_set_unit]
  exact Iff.rfl

/-- The output blocks cover the array: entry (b, n, c) is in the block of (b, n / 512, c / 128). -/
theorem cover (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- The array after the region: the attention of the three arrays, entry by entry. -/
theorem final (hbody : ∀ (x0 : Vec Ideal S1x512x128 .bf16) (x1 x2 : Vec Ideal S1x2048x128 .bf16),
      out1_3 (F := Ideal) x0 x1 x2 = attnOf x0 x1 x2 cst) (c : Dev nD) :
    (dat1 V c).arrAt 3 cfg1.N = attnOf (V c main_v10_0) (V c main_v10_1) (V c main_v10_2) cst :=
  (dat1 V c).arrAt_eq_of_cover 3 _ (fun t _ => flushed_eq V hbody c t) cover

end Cert.Attn.R1

end
-- ==== Proof.Region2.lean ====
/-
  The output-projection kernel's array after its region, as one function of the arrays the region finds.

  The grid is 16 row tiles: point s stages rows 512·s … 512·s+511 of the flattened activation and the whole output
  weight, and writes back that block of rows times the weight's transpose — the same block of the projection of the
  whole matrix, since an entry of the projection sees the matrix only through its own row.  The 16 blocks tile the
  8192×1024 array.
-/
import proofs.«144489_j31301721653741_2_alg».proof.Proof.Bodies

set_option maxRecDepth 16384

noncomputable section

open scoped BigOperators

namespace Cert.Attn.R2

open Idealize.ShloMosaic Idealize.ShloMosaic.TcCoe Idealize.ShloMosaic.ValueIdx Idealize.SL.Sem
open Cert.KernelIdeal Cert.KernelIdeal.Gen Cert.Attn Cert.Attn.Bodies
open Idealize.ShloMosaic.Pipeline (Dat Cfg Window)

variable (V : (c : Dev nD) → (b : Ref sig .tc) → Buf (Elt Ideal) ((c : Thread nD τ).loc b))

/-- The printed index maps over the grid: the row block and the output block move together, the weight's block is
    the whole weight, and the output's column block index is 0. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) < 16 :=
  (by decide +kernel : ∀ t : Fin grid2.N, _)

/-- Every row tile is some grid point's output block. -/
theorem idx_onto : ∀ q0 : Fin 16, ∃ t : Fin cfg2.N, win2_2.index t = ![q0.val, 0] :=
  (by decide +kernel : ∀ q0 : Fin 16, ∃ t : Fin grid2.N, win2_2.index t = ![q0.val, 0])

/-- What point t writes back is block t of the projection of the whole matrix by the whole weight. -/
theorem flushed_eq (c : Dev nD) (t : Fin cfg2.N) :
    (dat2 V c).flushed 2 t = ((cfg2.win 2).blk t).view.read (Elt Ideal) (proj2 (V c main_v12) (V c main_arg2)) := by
  show (cfg2.win 2).cut (grid2.coords t) ((dat2 V c).after 2 t) = _
  rw [after2_2, out2_2_eq]
  obtain ⟨e0, e1, e2, e3, e4, -⟩ := idx_facts t
  funext y
  show proj2 (iblk2 V c 0 t) (iblk2 V c 1 t) y = proj2 (V c main_v12) (V c main_arg2) (((cfg2.win 2).blk t).view.emb y)
  refine proj2_block (V c main_v12) (V c main_arg2) (iblk2 V c 0 t) (iblk2 V c 1 t) y _ (fun k => ?_) (fun k => ?_)
  · show V c main_v12 (((cfg2.win 0).blk t).view.emb (ix2 (y 0) k)) = _
    refine congrArg (V c main_v12) (funext fun a => Fin.ext ?_)
    match a with
    | ⟨0, _⟩ => show win2_0.index t (0 : Fin 2) * 512 + 1 * (y 0).val = win2_2.index t (0 : Fin 2) * 512 + 1 * (y 0).val; omega
    | ⟨1, _⟩ => show win2_0.index t (1 : Fin 2) * 1024 + 1 * k.val = k.val; omega
  · show V c main_arg2 (((cfg2.win 1).blk t).view.emb (ix2 (y 1) k)) = _
    refine congrArg (V c main_arg2) (funext fun a => Fin.ext ?_)
    match a with
    | ⟨0, _⟩ => show win2_1.index t (0 : Fin 2) * 1024 + 1 * (y 1).val = win2_2.index t (1 : Fin 2) * 1024 + 1 * (y 1).val; omega
    | ⟨1, _⟩ => show win2_1.index t (1 : Fin 2) * 1024 + 1 * k.val = k.val; omega

/-- An index of the array is in point t's block iff each coordinate is in the block's range on its axis. -/
theorem mem_blk (t : Fin cfg2.N) (i : S8192x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v13).slice (win2_2.rect t)).set ↔ _
  rw [View.set_slice_whole, Rect.mem_set_unit]
  exact Iff.rfl

/-- The output blocks cover the array: row p is in the block of p / 512. -/
theorem cover (i : S8192x1024.Idx) : ∃ t : Fin cfg2.N, (cfg2.win 2).flush t = true ∧ i ∈ ((cfg2.win 2).blk t).view.set := by
  have hi0 : (i 0).val < 8192 := (i 0).isLt
  have hi1 : (i 1).val < 1024 := (i 1).isLt
  obtain ⟨t, ht⟩ := idx_onto ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The array after the region: the projection of the matrix by the weight, entry by entry. -/
theorem final (c : Dev nD) : (dat2 V c).arrAt 2 cfg2.N = proj2 (V c main_v12) (V c main_arg2) :=
  (dat2 V c).arrAt_eq_of_cover 2 _ (fun t _ => flushed_eq V c t) cover

end Cert.Attn.R2

end
-- ==== Proof.Layout.lean ====
/-
  The layout changes around the kernels, read at an index.

  The fused 3072×1024 weight is viewed as 16×3×64×1024 (head, part, lane, input), one part is cut out, and the unit
  axis and then the head axis are folded away, leaving a 1024×1024 weight whose row 64·h + d is row 192·h + 64·s + d
  of the fused weight.  Between the attention kernel and the output projection the 4×2048×1024 activation is viewed as
  8192×1024 (row 2048·b + n), and the result is viewed back;  projecting the flattened rows and unflattening is the
  projection of the rows where they were.
-/
import Idealize.ShloMosaic.Lib.ValueIdx
import Idealize.ShloMosaic.Lib.Pipeline.Value
import proofs.«144489_j31301721653741_2_alg».proof.Proof.Spec

noncomputable section

open scoped BigOperators

namespace Cert.Attn.Layout

open Idealize.ShloMosaic Idealize.ShloMosaic.ValueIdx Cert.Attn

/-- Part s of the fused weight, cut out through the four layout changes, is `wsel s` of it. -/
theorem regroup_eq (s : Fin 3) (w : (⟨2, ![3072, 1024]⟩ : Shape).Idx → EReal)
    (h1 : (⟨2, ![3072, 1024]⟩ : Shape).ShapeCasts ⟨4, ![16, 3, 64, 1024]⟩)
    (hs : (⟨4, ![16, 3, 64, 1024]⟩ : Shape).Slices ![0, s.val, 0, 0] ⟨4, ![16, 1, 64, 1024]⟩)
    (h2 : (⟨4, ![16, 1, 64, 1024]⟩ : Shape).ShapeCasts ⟨3, ![16, 64, 1024]⟩)
    (h3 : (⟨3, ![16, 64, 1024]⟩ : Shape).ShapeCasts ⟨2, ![1024, 1024]⟩) :
    shapeCast ⟨2, ![1024, 1024]⟩ (shapeCast ⟨3, ![16, 64, 1024]⟩
      (extractStridedSlice ⟨4, ![16, 1, 64, 1024]⟩ ![0, s.val, 0, 0] (shapeCast ⟨4, ![16, 3, 64, 1024]⟩ w h1) hs) h2) h3
      = wsel s w := by
  funext j
  obtain ⟨r, i, rfl⟩ : ∃ (r : Fin 1024) (i : Fin 1024), j = ix2 r i := ⟨j 0, j 1, eq_ix2 j⟩
  have hr := r.isLt
  have hi := i.isLt
  have hsv := s.isLt
  refine (shapeCast_apply _ h3 (ix2 r i) (ix3 (⟨r.val / 64, by omega⟩ : Fin 16) (⟨r.val % 64, by omega⟩ : Fin 64) i) (by
    rw [Shape.rowMajor_val_two, Shape.rowMajor_val_three]
    show (r.val / 64 * 64 + r.val % 64) * 1024 + i.val = r.val * 1024 + i.val
    omega)).trans ?_
  refine (shapeCast_apply _ h2 _ (ix4 (⟨r.val / 64, by omega⟩ : Fin 16) (0 : Fin 1) (⟨r.val % 64, by omega⟩ : Fin 64) i) (by
    rw [Shape.rowMajor_val_three, Shape.rowMajor_val_four]
    show ((r.val / 64 * 1 + 0) * 64 + r.val % 64) * 1024 + i.val = (r.val / 64 * 64 + r.val % 64) * 1024 + i.val
    omega)).trans ?_
  refine (extractStridedSlice_apply _ _ hs _ (ix4 (⟨r.val / 64, by omega⟩ : Fin 16) s (⟨r.val % 64, by omega⟩ : Fin 64) i) (fun a => by
    match a with
    | ⟨0, _⟩ => show r.val / 64 = 0 + r.val / 64; omega
    | ⟨1, _⟩ => show s.val = s.val + 0; omega
    | ⟨2, _⟩ => show r.val % 64 = 0 + r.val % 64; omega
    | ⟨3, _⟩ => show i.val = 0 + i.val; omega)).trans ?_
  refine (shapeCast_apply w h1 _ (ix2 (wRow s r) i) (by
    rw [Shape.rowMajor_val_two, Shape.rowMajor_val_four]
    show (r.val / 64 * 192 + s.val * 64 + r.val % 64) * 1024 + i.val = ((r.val / 64 * 3 + s.val) * 64 + r.val % 64) * 1024 + i.val
    omega)).trans ?_
  rfl

/-- Projecting the flattened rows and unflattening the result is the projection of the rows in place. -/
theorem flatten_proj (A : (⟨3, ![4, 2048, 1024]⟩ : Shape).Idx → EReal) (wo : (⟨2, ![1024, 1024]⟩ : Shape).Idx → EReal)
    (hf : (⟨3, ![4, 2048, 1024]⟩ : Shape).ShapeCasts ⟨2, ![8192, 1024]⟩)
    (hb : (⟨2, ![8192, 1024]⟩ : Shape).ShapeCasts ⟨3, ![4, 2048, 1024]⟩) :
    shapeCast ⟨3, ![4, 2048, 1024]⟩ (proj2 (shapeCast ⟨2, ![8192, 1024]⟩ A hf) wo) hb = proj A wo := by
  funext j
  obtain ⟨b, n, e, rfl⟩ : ∃ (b : Fin 4) (n : Fin 2048) (e : Fin 1024), j = ix3 b n e := ⟨j 0, j 1, j 2, eq_ix3 j⟩
  have hb' := b.isLt
  have hn := n.isLt
  refine (shapeCast_apply _ hb (ix3 b n e) (ix2 (⟨b.val * 2048 + n.val, by omega⟩ : Fin 8192) e) (by
    rw [Shape.rowMajor_val_two, Shape.rowMajor_val_three]
    show (b.val * 2048 + n.val) * 1024 + e.val = (b.val * 2048 + n.val) * 1024 + e.val
    rfl)).trans ?_
  unfold proj2 proj
  refine Finset.sum_congr rfl fun k _ => ?_
  refine congrArg₂ (fun a c : EReal => a * c) ?_ rfl
  exact shapeCast_apply A hf _ (ix3 b n k) (by
    rw [Shape.rowMajor_val_two, Shape.rowMajor_val_three]
    show (b.val * 2048 + n.val) * 1024 + k.val = (b.val * 2048 + n.val) * 1024 + k.val
    rfl)

end Cert.Attn.Layout

end
-- ==== Proof.KernelValue.lean ====
/-
  The idealized kernel program's result as one function of its arguments.

  Reading the buffer contents back from the return to the launch: the result is the unflattened output projection of
  the flattened attention array; the attention array is the attention of the three projected arrays; each projected
  array is the projection of the token array by one part of the fused weight, cut out by the layout changes at the
  head of the program; the token array and the output weight are as launched.  Composed, the result is the
  specification's whole function of the three arguments.
-/
import proofs.«144489_j31301721653741_2_alg».proof.Proof.KRun
import proofs.«144489_j31301721653741_2_alg».proof.Proof.Region0
import proofs.«144489_j31301721653741_2_alg».proof.Proof.Region1
import proofs.«144489_j31301721653741_2_alg».proof.Proof.Region2
import proofs.«144489_j31301721653741_2_alg».proof.Proof.Layout
import Idealize.ShloMosaic.Lib.StableHlo.Run

set_option maxRecDepth 16384

noncomputable section

open scoped BigOperators

namespace Cert.Attn.KV

open Idealize.ShloMosaic Idealize.ShloMosaic.TcCoe Idealize.ShloMosaic.ValueIdx Idealize.SL.Sem Idealize.ShloMosaic.StableHlo
open Cert.KernelIdeal Cert.KernelIdeal.Gen Cert.Attn
open Idealize.ShloMosaic.Pipeline (Dat Cfg Window)

variable (m : (ℓ : Loc nD τ sig) → Buf (Elt Ideal) ℓ) (ρ : Dev nD → PrngReg)

/-- The token array is as launched when the first kernel is entered. -/
theorem entry_tokens (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Part s of the fused weight, as the first kernel finds it. -/
theorem entry_wq (c : Dev nD) : W1 m ρ c (Proc.devRef .tc main_v3) = wsel 0 (m ((c : Thread nD τ).loc main_arg1)) := by
  have e : (W1 m ρ c (Proc.devRef .tc main_v3) : S1024x1024.Idx → EReal)
      = shapeCast S1024x1024 (shapeCast S16x64x1024 (extractStridedSlice S16x1x64x1024 ![0, 0, 0, 0]
          (shapeCast S16x3x64x1024 (m ((c : Thread nD τ).loc main_arg1)) shapeCasts_S3072x1024_S16x3x64x1024)
          slices_S16x3x64x1024_S16x1x64x1024_0_0_0_0) shapeCasts_S16x1x64x1024_S16x64x1024) shapeCasts_S16x64x1024_S1024x1024 := by
    dsimp only [W1, hostOps0]; after_results; rfl
  exact e.trans (Layout.regroup_eq 0 _ _ _ _ _)

theorem entry_wk (c : Dev nD) : W1 m ρ c (Proc.devRef .tc main_v6) = wsel 1 (m ((c : Thread nD τ).loc main_arg1)) := by
  have e : (W1 m ρ c (Proc.devRef .tc main_v6) : S1024x1024.Idx → EReal)
      = shapeCast S1024x1024 (shapeCast S16x64x1024 (extractStridedSlice S16x1x64x1024 ![0, 1, 0, 0]
          (shapeCast S16x3x64x1024 (m ((c : Thread nD τ).loc main_arg1)) shapeCasts_S3072x1024_S16x3x64x1024)
          slices_S16x3x64x1024_S16x1x64x1024_0_1_0_0) shapeCasts_S16x1x64x1024_S16x64x1024) shapeCasts_S16x64x1024_S1024x1024 := by
    dsimp only [W1, hostOps0]; after_results; rfl
  exact e.trans (Layout.regroup_eq 1 _ _ _ _ _)

theorem entry_wv (c : Dev nD) : W1 m ρ c (Proc.devRef .tc main_v9) = wsel 2 (m ((c : Thread nD τ).loc main_arg1)) := by
  have e : (W1 m ρ c (Proc.devRef .tc main_v9) : S1024x1024.Idx → EReal)
      = shapeCast S1024x1024 (shapeCast S16x64x1024 (extractStridedSlice S16x1x64x1024 ![0, 2, 0, 0]
          (shapeCast S16x3x64x1024 (m ((c : Thread nD τ).loc main_arg1)) shapeCasts_S3072x1024_S16x3x64x1024)
          slices_S16x3x64x1024_S16x1x64x1024_0_2_0_0) shapeCasts_S16x1x64x1024_S16x64x1024) shapeCasts_S16x64x1024_S1024x1024 := by
    dsimp only [W1, hostOps0]; after_results; rfl
  exact e.trans (Layout.regroup_eq 2 _ _ _ _ _)

/-- The three projected arrays after the first kernel. -/
theorem after_q (c : Dev nD) : W2 m ρ c (Proc.devRef .tc main_v10_0)
    = part 0 (m ((c : Thread nD τ).loc main_arg0)) (m ((c : Thread nD τ).loc main_arg1)) := by
  refine (W2_arr m ρ c 4).trans ((R0.final4 (V1 m ρ) c).trans ?_)
  show proj (W1 m ρ c (Proc.devRef .tc main_arg0)) (W1 m ρ c (Proc.devRef .tc main_v3)) = _
  rw [entry_tokens, entry_wq]; rfl

theorem after_k (c : Dev nD) : W2 m ρ c (Proc.devRef .tc main_v10_1)
    = part 1 (m ((c : Thread nD τ).loc main_arg0)) (m ((c : Thread nD τ).loc main_arg1)) := by
  refine (W2_arr m ρ c 5).trans ((R0.final5 (V1 m ρ) c).trans ?_)
  show proj (W1 m ρ c (Proc.devRef .tc main_arg0)) (W1 m ρ c (Proc.devRef .tc main_v6)) = _
  rw [entry_tokens, entry_wk]; rfl

theorem after_v (c : Dev nD) : W2 m ρ c (Proc.devRef .tc main_v10_2)
    = part 2 (m ((c : Thread nD τ).loc main_arg0)) (m ((c : Thread nD τ).loc main_arg1)) := by
  refine (W2_arr m ρ c 6).trans ((R0.final6 (V1 m ρ) c).trans ?_)
  show proj (W1 m ρ c (Proc.devRef .tc main_arg0)) (W1 m ρ c (Proc.devRef .tc main_v9)) = _
  rw [entry_tokens, entry_wv]; rfl

/-- The output weight is as launched when the last kernel is entered. -/
theorem entry_wo (c : Dev nD) : W4 m ρ c (Proc.devRef .tc main_arg2) = m ((c : Thread nD τ).loc main_arg2) :=
  calc W4 m ρ c (Proc.devRef .tc main_arg2)
    _ = Gen.W3 m ρ c (Proc.devRef .tc main_arg2) := StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg2) := Gen.W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

/-- The flattened attention array, as the last kernel finds it. -/
theorem entry_flat (c : Dev nD) : W4 m ρ c (Proc.devRef .tc main_v12)
    = shapeCast S8192x1024 (Gen.W3 m ρ c (Proc.devRef .tc main_v11)) shapeCasts_S4x2048x1024_S8192x1024 := by
  dsimp only [W4, hostOps2]; after_results; rfl

section
variable (hbody : ∀ (x0 : Vec Ideal S1x512x128 .bf16) (x1 x2 : Vec Ideal S1x2048x128 .bf16),
  out1_3 (F := Ideal) x0 x1 x2 = attnOf x0 x1 x2 cst)
include hbody

/-- The attention array after the second kernel. -/
theorem after_attn (c : Dev nD) : Gen.W3 m ρ c (Proc.devRef .tc main_v11)
    = attnOf (part 0 (m ((c : Thread nD τ).loc main_arg0)) (m ((c : Thread nD τ).loc main_arg1)))
        (part 1 (m ((c : Thread nD τ).loc main_arg0)) (m ((c : Thread nD τ).loc main_arg1)))
        (part 2 (m ((c : Thread nD τ).loc main_arg0)) (m ((c : Thread nD τ).loc main_arg1))) cst := by
  refine (Gen.W3_arr m ρ c 3).trans ((R1.final (V2 m ρ) hbody c).trans ?_)
  show attnOf (W2 m ρ c (Proc.devRef .tc main_v10_0)) (W2 m ρ c (Proc.devRef .tc main_v10_1)) (W2 m ρ c (Proc.devRef .tc main_v10_2)) cst = _
  rw [after_q, after_k, after_v]

/-- THE RESULT: the last boundary's contents at the result buffer are the whole function of the arguments. -/
theorem result_eq (c : Dev nD) : W6 m ρ c (Proc.devRef .tc main_v14)
    = G (m ((c : Thread nD τ).loc main_arg0)) (m ((c : Thread nD τ).loc main_arg1)) (m ((c : Thread nD τ).loc main_arg2)) := by
  have e6 : (W6 m ρ c (Proc.devRef .tc main_v14) : S4x2048x1024.Idx → EReal)
      = shapeCast S4x2048x1024 (W5 m ρ c (Proc.devRef .tc main_v13)) shapeCasts_S8192x1024_S4x2048x1024 := by
    dsimp only [W6, hostOps3]; after_results; rfl
  have e5 : W5 m ρ c (Proc.devRef .tc main_v13)
      = proj2 (W4 m ρ c (Proc.devRef .tc main_v12)) (W4 m ρ c (Proc.devRef .tc main_arg2)) :=
    (W5_arr m ρ c 2).trans (R2.final (V4 m ρ) c)
  rw [e6, e5, entry_flat, entry_wo, after_attn m ρ hbody]
  exact Layout.flatten_proj _ _ _ _

end

end Cert.Attn.KV

end
-- ==== Proof.AttnBody.lean ====
/-
  The attention kernel's body as a function of its three blocks, at the exact (extended-real) values.

  The body sees a 1×512×128 block of query rows and 1×2048×128 blocks of key and value rows.  It drops the unit axis,
  and for each of the two groups of 64 columns (offset o = 0 and o = 64) it forms the scores
      z(r, k) = (Σ_d q(r, o + d) · key(k, o + d)) · c,
  turns each row of scores into softmax weights (the row maximum folded from −∞, recast as a column and spread back,
  subtracted; the exponential; the row sum, as a column spread back; the quotient), and multiplies the weights with
  the group's 64 value columns.  The two 512×64 results are laid side by side and the unit axis is put back.  Entry
  (0, r, cc) of the result is therefore the softmax-weighted sum of column cc of the value rows, the weights computed
  within the group of 64 columns that cc belongs to: attention on the block.
-/
import proofs.«144489_j31301721653741_2_alg».proof.Proof.Gen.KernelIdeal.Frame
import proofs.«144489_j31301721653741_2_alg».proof.Proof.Spec
import proofs.«144489_j31301721653741_2_alg».proof.Proof.LibGatedMix
import Idealize.ShloMosaic.Lib.Pipeline.Value
import Idealize.ShloMosaic.Lib.ValueLayout

noncomputable section

open scoped BigOperators

namespace Cert.Attn.Body

open Idealize.ShloMosaic Idealize.ShloMosaic.ValueIdx Cert.LogSoftmax Cert.Column Cert.RowDot Cert.GatedMix
open Cert.KernelIdeal Cert.KernelIdeal.Gen

/-! ## Softmax weights as the vector unit spells them -/

/-- The exponential of the shifted array divided by its lane sum, the sum recast as a column and spread back. -/
def vecSoftmax {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    FVec Ideal (⟨2, ![M, C]⟩ : Shape) .f32 :=
  divf (exp (vectorShift L hr hφ hmax hc hb))
    (broadcastTo ⟨2, ![M, C]⟩ (shapeCast ⟨2, ![M, 1]⟩
      (multiReduction .add [1] (⟨1, ![M]⟩ : Shape) (exp (vectorShift L hr hφ hmax hc hb)) 0x00000000#32 hr hφ hadd) hc) hb)

/-- At entry (p, c) it is the softmax weight of position c of row p. -/
theorem vecSoftmax_apply {M C : Nat} (L : FVec Ideal (⟨2, ![M, C]⟩ : Shape) .f32)
    (hr : (⟨2, ![M, C]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (c : Fin C) :
    vecSoftmax L hr hφ hmax hadd hc hb (ix2 p c) = softmaxW (fun k => L (ix2 p k)) c := by
  have hsum : multiReduction .add [1] (⟨1, ![M]⟩ : Shape) (exp (vectorShift L hr hφ hmax hc hb)) 0x00000000#32 hr hφ hadd (ix1 p)
      = ∑ k : Fin C, Ideal.exp (L (ix2 p k) - rowMax fun c => L (ix2 p c)) := by
    rw [laneSum_apply]
    exact Finset.sum_congr rfl fun k _ => congrArg Ideal.exp (vectorShift_apply L hr hφ hmax hc hb p k)
  unfold vecSoftmax softmaxW
  rw [divf_apply, broadcastTo_a1_ab_apply, shapeCast_a_a1_apply, hsum]
  exact congrArg (fun a => Ideal.div (Ideal.exp a) _) (vectorShift_apply L hr hφ hmax hc hb p c)

/-! ## One group of columns -/

/-- The scores of every query row against every key row within the columns o … o+E−1, times the scale. -/
theorem score_apply {M N D E : Nat} (o : Nat)
    (hsq : (⟨2, ![M, D]⟩ : Shape).Slices ![0, o] ⟨2, ![M, E]⟩) (hsk : (⟨2, ![N, D]⟩ : Shape).Slices ![0, o] ⟨2, ![N, E]⟩)
    (w : BitVec 32) (q : FVec Ideal (⟨2, ![M, D]⟩ : Shape) .bf16) (k : FVec Ideal (⟨2, ![N, D]⟩ : Shape) .bf16)
    (col : Fin E → Fin D) (hcol : ∀ d, (col d).val = o + d.val) (r : Fin M) (k' : Fin N) :
    mulf (matmul (DotDims.transposedRhs M E N) none (extractStridedSlice ⟨2, ![M, E]⟩ ![0, o] q hsq)
        (extractStridedSlice ⟨2, ![N, E]⟩ ![0, o] k hsk) (constant (F := Ideal) (⟨2, ![M, N]⟩ : Shape) .f32 0x00000000#32))
      (broadcast (⟨2, ![M, N]⟩ : Shape) (Scalar.ofBits (F := Ideal) .f32 w)) (ix2 r k')
      = (∑ d : Fin E, q (ix2 r (col d)) * k (ix2 k' (col d))) * Ideal.ofBits .f32 w := by
  rw [mulf_apply, broadcast_apply]
  refine congrArg (· * Ideal.ofBits .f32 w) ?_
  refine (matmul_transposed_zero_apply none _ _ (ix2 r k')).trans ?_
  unfold rowDotT rowOf
  refine Finset.sum_congr rfl fun d _ => ?_
  exact congrArg₂ (fun a b : EReal => a * b) (slice2_axis1_apply o q hsq r d (col d) (hcol d))
    (slice2_axis1_apply o k hsk k' d (col d) (hcol d))

/-- The softmax weights of the scores within the columns o … o+E−1, as the body computes them. -/
def probs {M N D E : Nat} (o : Nat)
    (hsq : (⟨2, ![M, D]⟩ : Shape).Slices ![0, o] ⟨2, ![M, E]⟩) (hsk : (⟨2, ![N, D]⟩ : Shape).Slices ![0, o] ⟨2, ![N, E]⟩)
    (hr : (⟨2, ![M, N]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (hlt : FTy.bf16.bits < FTy.f32.bits) (w : BitVec 32)
    (q : FVec Ideal (⟨2, ![M, D]⟩ : Shape) .bf16) (k : FVec Ideal (⟨2, ![N, D]⟩ : Shape) .bf16) :
    FVec Ideal (⟨2, ![M, N]⟩ : Shape) .bf16 :=
  truncf .bf16 (vecSoftmax
    (mulf (matmul (DotDims.transposedRhs M E N) none (extractStridedSlice ⟨2, ![M, E]⟩ ![0, o] q hsq)
        (extractStridedSlice ⟨2, ![N, E]⟩ ![0, o] k hsk) (constant (F := Ideal) (⟨2, ![M, N]⟩ : Shape) .f32 0x00000000#32))
      (broadcast (⟨2, ![M, N]⟩ : Shape) (Scalar.ofBits (F := Ideal) .f32 w)))
    hr hφ hmax hadd hc hb) hlt

theorem probs_apply {M N D E : Nat} (o : Nat)
    (hsq : (⟨2, ![M, D]⟩ : Shape).Slices ![0, o] ⟨2, ![M, E]⟩) (hsk : (⟨2, ![N, D]⟩ : Shape).Slices ![0, o] ⟨2, ![N, E]⟩)
    (hr : (⟨2, ![M, N]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (hlt : FTy.bf16.bits < FTy.f32.bits) (w : BitVec 32)
    (q : FVec Ideal (⟨2, ![M, D]⟩ : Shape) .bf16) (k : FVec Ideal (⟨2, ![N, D]⟩ : Shape) .bf16)
    (col : Fin E → Fin D) (hcol : ∀ d, (col d).val = o + d.val) (r : Fin M) (k' : Fin N) :
    probs o hsq hsk hr hφ hmax hadd hc hb hlt w q k (ix2 r k')
      = softmaxW (fun k'' => (∑ d : Fin E, q (ix2 r (col d)) * k (ix2 k'' (col d))) * Ideal.ofBits .f32 w) k' := by
  unfold probs
  rw [truncf_apply, vecSoftmax_apply]
  exact congrArg (fun z => softmaxW z k') (funext fun k'' => score_apply o hsq hsk w q k col hcol r k'')

/-- The weights times the group's value columns: entry (r, d) of the group's result. -/
theorem half_apply {M N D E : Nat} (o : Nat)
    (hsq : (⟨2, ![M, D]⟩ : Shape).Slices ![0, o] ⟨2, ![M, E]⟩) (hsk hsv : (⟨2, ![N, D]⟩ : Shape).Slices ![0, o] ⟨2, ![N, E]⟩)
    (hr : (⟨2, ![M, N]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (hlt : FTy.bf16.bits < FTy.f32.bits) (w : BitVec 32)
    (q : FVec Ideal (⟨2, ![M, D]⟩ : Shape) .bf16) (k v : FVec Ideal (⟨2, ![N, D]⟩ : Shape) .bf16)
    (col : Fin E → Fin D) (hcol : ∀ d, (col d).val = o + d.val) (r : Fin M) (d : Fin E) :
    matmul (DotDims.plain M N E) none (probs o hsq hsk hr hφ hmax hadd hc hb hlt w q k)
        (extractStridedSlice ⟨2, ![N, E]⟩ ![0, o] v hsv) (constant (F := Ideal) (⟨2, ![M, E]⟩ : Shape) .f32 0x00000000#32) (ix2 r d)
      = ∑ k' : Fin N, softmaxW (fun k'' => (∑ d' : Fin E, q (ix2 r (col d')) * k (ix2 k'' (col d'))) * Ideal.ofBits .f32 w) k'
          * v (ix2 k' (col d)) := by
  refine (matmul_plain_zero_apply none _ _ (ix2 r d)).trans ?_
  unfold rowDot rowOf
  refine Finset.sum_congr rfl fun k' _ => ?_
  exact congrArg₂ (fun a b : EReal => a * b) (probs_apply o hsq hsk hr hφ hmax hadd hc hb hlt w q k col hcol r k')
    (slice2_axis1_apply o v hsv k' d (col d) (hcol d))

/-! ## The body's payloads -/

/-- The second group's weights are `probs` at offset 64 of the blocks without their unit axis. -/
theorem pay7_eq (x0 : Vec Ideal S1x512x128 .bf16) (x1 : Vec Ideal S1x2048x128 .bf16) :
    k1_pay7 (F := Ideal) x0 x1
      = probs 64 slices_S512x128_o0_64_S512x64 slices_S2048x128_o0_64_S2048x64 reduces_S512x2048_S512 (.inl rfl) rfl rfl
          shapeCasts_S512_S512x1 broadcasts_S512x1_S512x2048 bitsLt_bf16_f32 0x3E000000#32 (k1_pay2 x0) (k1_pay3 x1) := rfl

/-- The first group's result is the product of `probs` at offset 0 with the first 64 value columns. -/
theorem pay5_eq (x0 : Vec Ideal S1x512x128 .bf16) (x1 x2 : Vec Ideal S1x2048x128 .bf16) :
    k1_pay5 (F := Ideal) x0 x1 x2
      = matmul (DotDims.plain 512 2048 64) none
          (probs 0 slices_S512x128_o0_0_S512x64 slices_S2048x128_o0_0_S2048x64 reduces_S512x2048_S512 (.inl rfl) rfl rfl
            shapeCasts_S512_S512x1 broadcasts_S512x1_S512x2048 bitsLt_bf16_f32 0x3E000000#32 (k1_pay2 x0) (k1_pay3 x1))
          (extractStridedSlice S2048x64 ![0, 0] (k1_pay4 x2) slices_S2048x128_o0_0_S2048x64)
          (constant (F := Ideal) S512x64 .f32 0x00000000#32) := rfl

/-- One group's weighted sum over the blocks without their unit axis is attention on the blocks, once the group's
    columns are the columns of the entry's head and the group's value column is the entry's column. -/
theorem group_eq (x0 : Vec Ideal S1x512x128 .bf16) (x1 x2 : Vec Ideal S1x2048x128 .bf16)
    (col : Fin 64 → Fin 128) (r : Fin 512) (cc : Fin 128) (d : Fin 64)
    (hcols : ∀ d', col d' = hcol cc d') (hd : col d = cc) :
    (∑ k' : Fin 2048, softmaxW (fun k'' => (∑ d' : Fin 64, k1_pay2 (F := Ideal) x0 (ix2 r (col d'))
          * k1_pay3 (F := Ideal) x1 (ix2 k'' (col d'))) * Ideal.ofBits .f32 0x3E000000#32) k'
        * k1_pay4 (F := Ideal) x2 (ix2 k' (col d)))
      = attnOf x0 x1 x2 cst (ix3 (0 : Fin 1) r cc) := by
  obtain rfl : col = hcol cc := funext hcols
  unfold attnOf
  show _ = ∑ k : Fin 2048, softmaxW (scores x0 x1 cst (0 : Fin 1) r cc) k * x2 (ix3 (0 : Fin 1) k cc)
  refine Finset.sum_congr rfl fun k' _ => ?_
  refine congrArg₂ (fun a b : EReal => a * b) (congrArg (fun z => softmaxW z k') (funext fun k'' => ?_)) ?_
  · unfold scores
    refine congrArg (· * cst) (Finset.sum_congr rfl fun d' _ => ?_)
    exact congrArg₂ (fun a b : EReal => a * b) (shapeCast_1ab_ab_apply x0 _ r _) (shapeCast_1ab_ab_apply x1 _ k'' _)
  · rw [hd]
    exact shapeCast_1ab_ab_apply x2 _ k' cc

/-- The columns of the first group. -/
def colLo (d : Fin 64) : Fin 128 := ⟨d.val, by have := d.isLt; omega⟩
/-- The columns of the second group. -/
def colHi (d : Fin 64) : Fin 128 := ⟨64 + d.val, by have := d.isLt; omega⟩

/-- The body's stored value at entry (0, r, cc). -/
theorem pay1_apply (x0 : Vec Ideal S1x512x128 .bf16) (x1 x2 : Vec Ideal S1x2048x128 .bf16) (r : Fin 512) (cc : Fin 128) :
    k1_pay1 (F := Ideal) (k1_pay5 x0 x1 x2) (k1_pay6 x2) (k1_pay7 x0 x1) (ix3 (0 : Fin 1) r cc)
      = attnOf x0 x1 x2 cst (ix3 (0 : Fin 1) r cc) := by
  unfold k1_pay1
  refine (shapeCast_ab_1ab_apply _ _ (0 : Fin 1) r cc).trans ?_
  rw [truncf_apply]
  by_cases h : cc.val < 64
  · refine (concatenate_pair_apply_left (t := S512x128) (s₁ := S512x64) (s₂ := S512x64) (1 : Fin 2) _ _ _ (ix2 r cc) rfl (ix2 r (⟨cc.val, h⟩ : Fin 64))
      (fun b => by match b with | ⟨0, _⟩ => rfl | ⟨1, _⟩ => rfl)).trans ?_
    rw [pay5_eq]
    refine (half_apply 0 _ _ _ _ _ _ _ _ _ _ _ _ _ _ colLo (fun d => (Nat.zero_add _).symm) r ⟨cc.val, h⟩).trans ?_
    refine group_eq x0 x1 x2 colLo r cc ⟨cc.val, h⟩ (fun d' => Fin.ext ?_) (Fin.ext rfl)
    show d'.val = ((cc.val / 64) * 64 + d'.val) % 128
    have := d'.isLt; omega
  · have h' : cc.val - 64 < 64 := by have := cc.isLt; omega
    refine (concatenate_pair_apply_right (t := S512x128) (s₁ := S512x64) (s₂ := S512x64) (1 : Fin 2) _ _ _ (ix2 r cc) rfl rfl (ix2 r (⟨cc.val - 64, h'⟩ : Fin 64))
      (fun b => by match b with | ⟨0, _⟩ => exact fun _ => rfl | ⟨1, _⟩ => exact fun hne => absurd rfl hne)
      (by show cc.val - 64 + 64 = cc.val; omega)).trans ?_
    rw [pay7_eq]
    refine (half_apply 64 _ _ slices_S2048x128_o0_64_S2048x64 _ _ _ _ _ _ _ _ _ _ (k1_pay4 x2) colHi (fun d => rfl) r ⟨cc.val - 64, h'⟩).trans ?_
    refine group_eq x0 x1 x2 colHi r cc ⟨cc.val - 64, h'⟩ (fun d' => Fin.ext ?_) (Fin.ext ?_)
    · show 64 + d'.val = ((cc.val / 64) * 64 + d'.val) % 128
      have := d'.isLt; have := cc.isLt; omega
    · show 64 + (cc.val - 64) = cc.val
      omega

/-- The attention kernel's body leaves attention on its blocks in the output block. -/
theorem out1_3_eq (x0 : Vec Ideal S1x512x128 .bf16) (x1 x2 : Vec Ideal S1x2048x128 .bf16) :
    out1_3 (F := Ideal) x0 x1 x2 = attnOf x0 x1 x2 cst := by
  have hz : (![0, 0, 0] : Fin 3 → Nat) = fun _ => 0 := by funext a; fin_cases a <;> rfl
  unfold out1_3
  rw [View.canon_unit_zero hz]
  simp only [View.ld_unit_zero (S := S1x512x128) hz, View.ld_unit_zero (S := S1x2048x128) hz]
  funext j
  obtain ⟨u, r, cc, rfl⟩ : ∃ (u : Fin 1) (r : Fin 512) (cc : Fin 128), j = ix3 u r cc := ⟨j 0, j 1, j 2, eq_ix3 j⟩
  obtain rfl : u = 0 := Subsingleton.elim _ _
  exact pay1_apply x0 x1 x2 r cc

end Cert.Attn.Body

end
-- ==== Proof.RefValue.lean ====
/-
  The host program's result is the attention function of the specification, entry by entry.

  The host computes the fused projection x·wᵀ as one 4×2048×3072 array, views its last axis as 16 heads of 192 lanes,
  moves the head axis in front of the row axis and cuts the lanes into three groups of 64: entry (b, h, n, d) of group
  s is entry (b, n, 192·h + 64·s + d) of the fused projection, which is part s of the specification at column 64·h + d.
  Scores, the softmax along the last axis and the product with the values follow per (batch, head); the result is moved
  back (column c comes from head c / 64, lane c % 64) and projected by the output weight.
-/
import proofs.«144489_j31301721653741_2_alg».proof.Proof.Gen.ReferenceIdeal.Read
import proofs.«144489_j31301721653741_2_alg».proof.Proof.Spec

noncomputable section

open scoped BigOperators

namespace Cert.Attn.Ref

open Idealize.ShloMosaic Idealize.ShloMosaic.ValueIdx Cert.LogSoftmax Cert.ReferenceIdeal Cert.ReferenceIdeal.Read

/-- The arguments' types, as the host program states them. -/
abbrev XT := (⟨S4x2048x1024, .f32⟩ : BufTy).Contents (Elt Ideal)
abbrev WT := (⟨S3072x1024, .f32⟩ : BufTy).Contents (Elt Ideal)
abbrev WOT := (⟨S1024x1024, .f32⟩ : BufTy).Contents (Elt Ideal)

/-- The head of a column and its lane within the head. -/
def hd (c : Fin 1024) : Fin 16 := ⟨c.val / 64, by have := c.isLt; omega⟩
def ln (c : Fin 1024) : Fin 64 := ⟨c.val % 64, Nat.mod_lt _ (by decide)⟩

/-- Lane e of head h of the fused projection's 3072 columns. -/
def fusedCol (h : Fin 16) (e : Fin 192) : Fin 3072 := ⟨h.val * 192 + e.val, by have := h.isLt; have := e.isLt; omega⟩

/-! ## The projections -/

/-- The fused projection at (b, n, r). -/
theorem v0_at (x : XT) (w : WT) (b : Fin 4) (n : Fin 2048) (r : Fin 3072) :
    val_main_v0 (F := Ideal) x w (ix3 b n r) = ∑ i : Fin 1024, x (ix3 b n i) * w (ix2 r i) := by
  refine (val_main_v0_apply x w _).trans (Finset.sum_congr rfl fun i _ => ?_)
  have hl : lidx_main_v0 (ix3 b n r) i = ix3 b n i := funext fun a => by
    match a with | ⟨0, _⟩ => rfl | ⟨1, _⟩ => rfl | ⟨2, _⟩ => rfl
  have hr : ridx_main_v0 (ix3 b n r) i = ix2 r i := funext fun a => by
    match a with | ⟨0, _⟩ => rfl | ⟨1, _⟩ => rfl
  rw [hl, hr]

/-- The head-major view of the fused projection: entry (b, h, n, e) is the fused projection at (b, n, 192·h + e). -/
theorem v2_at (x : XT) (w : WT) (b : Fin 4) (h : Fin 16) (n : Fin 2048) (e : Fin 192) :
    val_main_v2 (F := Ideal) x w (ix4 b h n e) = ∑ i : Fin 1024, x (ix3 b n i) * w (ix2 (fusedCol h e) i) := by
  have h2 : idx_main_v2 (ix4 b h n e) = ix4 b n h e := funext fun a => by
    match a with | ⟨0, _⟩ => rfl | ⟨1, _⟩ => rfl | ⟨2, _⟩ => rfl | ⟨3, _⟩ => rfl
  have h1 : idx_main_v1 (ix4 b n h e) = ix3 b n (fusedCol h e) := funext fun a => Fin.ext (by
    have hb := b.isLt; have hh := h.isLt; have hn := n.isLt; have he := e.isLt
    match a with
    | ⟨0, _⟩ => show (((b.val * 2048 + n.val) * 16 + h.val) * 192 + e.val) / 6291456 = b.val; omega
    | ⟨1, _⟩ => show (((b.val * 2048 + n.val) * 16 + h.val) * 192 + e.val) / 3072 % 2048 = n.val; omega
    | ⟨2, _⟩ => show (((b.val * 2048 + n.val) * 16 + h.val) * 192 + e.val) % 3072 = h.val * 192 + e.val; omega)
  rw [val_main_v2_apply, h2, val_main_v1_apply, h1, v0_at]

/-- Part s of the projection at column c is the fused projection at row 192·(c / 64) + 64·s + c % 64 of the weight. -/
theorem part_at (s : Fin 3) (x : XT) (w : WT) (b : Fin 4) (n : Fin 2048) (c : Fin 1024) :
    part s x w (ix3 b n c) = ∑ i : Fin 1024, x (ix3 b n i) * w (ix2 (wRow s c) i) := rfl

/-- The three groups of 64 lanes are the three parts. -/
theorem v3_at (x : XT) (w : WT) (b : Fin 4) (n : Fin 2048) (c : Fin 1024) :
    val_main_v3 (F := Ideal) x w (ix4 b (hd c) n (ln c)) = part 0 x w (ix3 b n c) := by
  have h3 : idx_main_v3 (ix4 b (hd c) n (ln c)) = ix4 b (hd c) n (⟨(ln c).val, by have := (ln c).isLt; omega⟩ : Fin 192) :=
    funext fun a => by match a with | ⟨0, _⟩ => rfl | ⟨1, _⟩ => rfl | ⟨2, _⟩ => rfl | ⟨3, _⟩ => rfl
  have hr : fusedCol (hd c) (⟨(ln c).val, by have := (ln c).isLt; omega⟩ : Fin 192) = wRow 0 c := Fin.ext (by
    show c.val / 64 * 192 + c.val % 64 = c.val / 64 * 192 + 0 * 64 + c.val % 64; omega)
  rw [val_main_v3_apply, h3, v2_at, hr, part_at]

theorem v4_at (x : XT) (w : WT) (b : Fin 4) (n : Fin 2048) (c : Fin 1024) :
    val_main_v4 (F := Ideal) x w (ix4 b (hd c) n (ln c)) = part 1 x w (ix3 b n c) := by
  have h4 : idx_main_v4 (ix4 b (hd c) n (ln c)) = ix4 b (hd c) n (⟨64 + (ln c).val, by have := (ln c).isLt; omega⟩ : Fin 192) :=
    funext fun a => by match a with | ⟨0, _⟩ => rfl | ⟨1, _⟩ => rfl | ⟨2, _⟩ => rfl | ⟨3, _⟩ => rfl
  have hr : fusedCol (hd c) (⟨64 + (ln c).val, by have := (ln c).isLt; omega⟩ : Fin 192) = wRow 1 c := Fin.ext (by
    show c.val / 64 * 192 + (64 + c.val % 64) = c.val / 64 * 192 + 1 * 64 + c.val % 64; omega)
  rw [val_main_v4_apply, h4, v2_at, hr, part_at]

theorem v5_at (x : XT) (w : WT) (b : Fin 4) (n : Fin 2048) (c : Fin 1024) :
    val_main_v5 (F := Ideal) x w (ix4 b (hd c) n (ln c)) = part 2 x w (ix3 b n c) := by
  have h5 : idx_main_v5 (ix4 b (hd c) n (ln c)) = ix4 b (hd c) n (⟨128 + (ln c).val, by have := (ln c).isLt; omega⟩ : Fin 192) :=
    funext fun a => by match a with | ⟨0, _⟩ => rfl | ⟨1, _⟩ => rfl | ⟨2, _⟩ => rfl | ⟨3, _⟩ => rfl
  have hr : fusedCol (hd c) (⟨128 + (ln c).val, by have := (ln c).isLt; omega⟩ : Fin 192) = wRow 2 c := Fin.ext (by
    show c.val / 64 * 192 + (128 + c.val % 64) = c.val / 64 * 192 + 2 * 64 + c.val % 64; omega)
  rw [val_main_v5_apply, h5, v2_at, hr, part_at]

/-- Column d of the head of column c has the same head, and lane d. -/
theorem hd_hcol (c : Fin 1024) (d : Fin 64) : hd (hcol c d) = hd c := Fin.ext (by
  have := c.isLt; have := d.isLt
  show (c.val / 64 * 64 + d.val) % 1024 / 64 = c.val / 64; omega)
theorem ln_hcol (c : Fin 1024) (d : Fin 64) : ln (hcol c d) = d := Fin.ext (by
  have := c.isLt; have := d.isLt
  show (c.val / 64 * 64 + d.val) % 1024 % 64 = d.val; omega)

/-! ## The scale -/

theorem word_64 : Ideal.ofBits .f32 0x42800000#32 = ((64 : ℝ) : EReal) := by
  simp [Ideal.ofBits, Ideal.ieee, -EReal.coe_mul]; norm_num
theorem word_1 : Ideal.ofBits .f32 0x3F800000#32 = ((1 : ℝ) : EReal) := by
  simp [Ideal.ofBits, Ideal.ieee, -EReal.coe_mul]; norm_num
theorem word_8th : Ideal.ofBits .f32 0x3E000000#32 = ((1 / 8 : ℝ) : EReal) := by
  simp [Ideal.ofBits, Ideal.ieee, -EReal.coe_mul]; norm_num

theorem sqrt_64 : Real.sqrt 64 = 8 := by
  rw [show (64 : ℝ) = 8 ^ 2 by norm_num, Real.sqrt_sq (by norm_num)]

/-- One over the square root of 64 is the word of 1/8. -/
theorem v7_at (i : S_.Idx) : val_main_v7 (F := Ideal) i = cst := by
  rw [val_main_v7_apply, val_main_v6_apply, val_main_cst_apply, val_main_cst_0_apply]
  show Ideal.div (Ideal.ofBits .f32 0x3F800000#32) (Ideal.sqrt (Ideal.ofBits .f32 0x42800000#32)) = Ideal.ofBits .f32 0x3E000000#32
  rw [word_64, word_1, word_8th, Ideal.sqrt_coe, if_neg (by norm_num), sqrt_64, Ideal.div_coe (by norm_num), ← EReal.coe_mul, one_mul]

/-! ## The scores -/

/-- Entry (b, head of c, q, k) of the scaled product of queries and keys is the score of query row q against key row k
    within the head of c. -/
theorem v10_at (x : XT) (w : WT) (b : Fin 4) (q k : Fin 2048) (c : Fin 1024) :
    val_main_v10 (F := Ideal) x w (ix4 b (hd c) q k) = scores (part 0 x w) (part 1 x w) cst b q c k := by
  rw [val_main_v10_apply, val_main_v9_apply, v7_at, val_main_v8_apply]
  show (∑ d : Fin 64, val_main_v3 (F := Ideal) x w (lidx_main_v8 (ix4 b (hd c) q k) d) * val_main_v4 (F := Ideal) x w (ridx_main_v8 (ix4 b (hd c) q k) d)) * cst = _
  unfold scores
  refine congrArg (· * cst) (Finset.sum_congr rfl fun d _ => ?_)
  have hl : lidx_main_v8 (ix4 b (hd c) q k) d = ix4 b (hd (hcol c d)) q (ln (hcol c d)) := by
    rw [hd_hcol, ln_hcol]
    exact funext fun a => by match a with | ⟨0, _⟩ => rfl | ⟨1, _⟩ => rfl | ⟨2, _⟩ => rfl | ⟨3, _⟩ => rfl
  have hr : ridx_main_v8 (ix4 b (hd c) q k) d = ix4 b (hd (hcol c d)) k (ln (hcol c d)) := by
    rw [hd_hcol, ln_hcol]
    exact funext fun a => by match a with | ⟨0, _⟩ => rfl | ⟨1, _⟩ => rfl | ⟨2, _⟩ => rfl | ⟨3, _⟩ => rfl
  rw [hl, hr, v3_at, v4_at]

/-! ## The softmax along the last axis -/

/-- Row (b, h, q) of a 4×16×2048×2048 array with lane k put back is (b, h, q, k). -/
theorem lift_row4 (hR : S4x16x2048x2048.Reduces [3] S4x16x2048) (b : Fin 4) (h : Fin 16) (q : Fin 2048)
    (k : Fin (S4x16x2048x2048.size 3)) : hR.lift (ix3 b h q) k = ix4 b h q (⟨k.val, k.isLt⟩ : Fin 2048) := by
  funext c; apply Fin.ext
  fin_cases c <;> rfl

/-- The host's maximum-reduce from −∞ along the last axis, at row (b, h, q): the row's maximum. -/
theorem hostMax4_apply (y : FVec Ideal S4x16x2048x2048 .f32)
    (h' : S4x16x2048x2048.ReducesTo [3] S4x16x2048) (hR : S4x16x2048x2048.Reduces [3] S4x16x2048)
    (hu : 0 < S_.numel) (b : Fin 4) (h : Fin 16) (q : Fin 2048) :
    Host.reduce FloatOps.maximumf y (constant (F := Ideal) S_ .f32 0xFF800000#32) h' hu (ix3 b h q)
      = rowMax fun k : Fin 2048 => y (ix4 b h q k) := by
  rw [Host.reduce_eq_fold_single FloatOps.maximumf y _ h' hR hu]
  have hf : (y ∘ hR.lift (ix3 b h q)) = fun k : Fin 2048 => y (ix4 b h q k) :=
    funext fun k => congrArg y (lift_row4 hR b h q k)
  exact congrArg (fun f => Finset.fold max (Ideal.ofBits .f32 0xFF800000#32) f (Finset.univ : Finset (Fin 2048))) hf

theorem v11_at (x : XT) (w : WT) (b : Fin 4) (h : Fin 16) (q : Fin 2048) :
    val_main_v11 (F := Ideal) x w (ix3 b h q) = rowMax fun k : Fin 2048 => val_main_v10 (F := Ideal) x w (ix4 b h q k) := by
  unfold val_main_v11
  generalize val_main_v10 (F := Ideal) x w = y
  exact hostMax4_apply y _ (by decide) _ b h q

/-- One more maximum against −∞ changes nothing. -/
theorem v13_at (x : XT) (w : WT) (b : Fin 4) (h : Fin 16) (q : Fin 2048) :
    val_main_v13 (F := Ideal) x w (ix3 b h q) = rowMax fun k : Fin 2048 => val_main_v10 (F := Ideal) x w (ix4 b h q k) := by
  rw [val_main_v13_apply, val_main_v12_apply, val_main_cst_2_apply, v11_at]
  exact max_negInf_rowMax _

/-- The maximum spread back over the lanes. -/
theorem v15_at (x : XT) (w : WT) (b : Fin 4) (h : Fin 16) (q k : Fin 2048) :
    val_main_v15 (F := Ideal) x w (ix4 b h q k) = rowMax fun k' : Fin 2048 => val_main_v10 (F := Ideal) x w (ix4 b h q k') := by
  have hi : idx_main_v14 (idx_main_v15 (ix4 b h q k)) = ix3 b h q := funext fun a => by
    match a with | ⟨0, _⟩ => rfl | ⟨1, _⟩ => rfl | ⟨2, _⟩ => rfl
  rw [val_main_v15_apply, val_main_v14_apply, hi, v13_at]

/-- The exponential of the shifted score. -/
theorem v17_at (x : XT) (w : WT) (b : Fin 4) (h : Fin 16) (q k : Fin 2048) :
    val_main_v17 (F := Ideal) x w (ix4 b h q k)
      = Ideal.exp (val_main_v10 (F := Ideal) x w (ix4 b h q k)
          - rowMax fun k' : Fin 2048 => val_main_v10 (F := Ideal) x w (ix4 b h q k')) := by
  rw [val_main_v17_apply, val_main_v16_apply, v15_at]
  rfl

/-- The sum of the exponentials along the row, from zero. -/
theorem v18_at (x : XT) (w : WT) (b : Fin 4) (h : Fin 16) (q : Fin 2048) :
    val_main_v18 (F := Ideal) x w (ix3 b h q)
      = ∑ k : Fin 2048, Ideal.exp (val_main_v10 (F := Ideal) x w (ix4 b h q k)
          - rowMax fun k' : Fin 2048 => val_main_v10 (F := Ideal) x w (ix4 b h q k')) := by
  rw [val_main_v18_apply, val_main_cst_3_apply]
  show Ideal.ofBits .f32 0x00000000#32 + _ = _
  rw [Ideal.ofBits_zero_f32, zero_add]
  refine Finset.sum_congr rfl fun k _ => ?_
  have hi : idx_main_v18 (ix3 b h q) k = ix4 b h q k := funext fun a => by
    match a with | ⟨0, _⟩ => rfl | ⟨1, _⟩ => rfl | ⟨2, _⟩ => rfl | ⟨3, _⟩ => rfl
  rw [hi, v17_at]

/-- The quotient: the softmax weight of lane k of row (b, h, q). -/
theorem v21_at (x : XT) (w : WT) (b : Fin 4) (h : Fin 16) (q k : Fin 2048) :
    val_main_v21 (F := Ideal) x w (ix4 b h q k)
      = softmaxW (fun k' : Fin 2048 => val_main_v10 (F := Ideal) x w (ix4 b h q k')) k := by
  have hi : idx_main_v19 (idx_main_v20 (ix4 b h q k)) = ix3 b h q := funext fun a => by
    match a with | ⟨0, _⟩ => rfl | ⟨1, _⟩ => rfl | ⟨2, _⟩ => rfl
  rw [val_main_v21_apply, val_main_v20_apply, val_main_v19_apply, hi, v18_at, v17_at]
  rfl

/-- Within the head of column c the weights are those of the specification's scores. -/
theorem v21_at_col (x : XT) (w : WT) (b : Fin 4) (q k : Fin 2048) (c : Fin 1024) :
    val_main_v21 (F := Ideal) x w (ix4 b (hd c) q k) = softmaxW (scores (part 0 x w) (part 1 x w) cst b q c) k := by
  have hz : (fun k' : Fin 2048 => val_main_v10 (F := Ideal) x w (ix4 b (hd c) q k')) = scores (part 0 x w) (part 1 x w) cst b q c :=
    funext fun k' => v10_at x w b q k' c
  rw [v21_at, hz]

/-! ## The weighted values, moved back, and the output projection -/

/-- Column c of the attention: head c / 64, lane c % 64 of the per-head product, which is the specification's entry. -/
theorem v24_at (x : XT) (w : WT) (b : Fin 4) (n : Fin 2048) (c : Fin 1024) :
    val_main_v24 (F := Ideal) x w (ix3 b n c)
      = attnOf (part 0 x w) (part 1 x w) (part 2 x w) cst (ix3 b n c) := by
  have h24 : idx_main_v24 (ix3 b n c) = ix4 b n (hd c) (ln c) := funext fun a => Fin.ext (by
    have hb := b.isLt; have hn := n.isLt; have hc := c.isLt
    match a with
    | ⟨0, _⟩ => show ((b.val * 2048 + n.val) * 1024 + c.val) / 2097152 = b.val; omega
    | ⟨1, _⟩ => show ((b.val * 2048 + n.val) * 1024 + c.val) / 1024 % 2048 = n.val; omega
    | ⟨2, _⟩ => show ((b.val * 2048 + n.val) * 1024 + c.val) / 64 % 16 = c.val / 64; omega
    | ⟨3, _⟩ => show ((b.val * 2048 + n.val) * 1024 + c.val) % 64 = c.val % 64; omega)
  have h23 : idx_main_v23 (ix4 b n (hd c) (ln c)) = ix4 b (hd c) n (ln c) := funext fun a => by
    match a with | ⟨0, _⟩ => rfl | ⟨1, _⟩ => rfl | ⟨2, _⟩ => rfl | ⟨3, _⟩ => rfl
  rw [val_main_v24_apply, h24, val_main_v23_apply, h23, val_main_v22_apply]
  show _ = ∑ k : Fin 2048, softmaxW (scores (part 0 x w) (part 1 x w) cst b n c) k * part 2 x w (ix3 b k c)
  refine Finset.sum_congr rfl fun k _ => ?_
  have hl : lidx_main_v22 (ix4 b (hd c) n (ln c)) k = ix4 b (hd c) n k := funext fun a => by
    match a with | ⟨0, _⟩ => rfl | ⟨1, _⟩ => rfl | ⟨2, _⟩ => rfl | ⟨3, _⟩ => rfl
  have hr : ridx_main_v22 (ix4 b (hd c) n (ln c)) k = ix4 b (hd c) k (ln c) := funext fun a => by
    match a with | ⟨0, _⟩ => rfl | ⟨1, _⟩ => rfl | ⟨2, _⟩ => rfl | ⟨3, _⟩ => rfl
  rw [hl, hr, v21_at_col, v5_at]

/-- The host program's result is the specification's function of its three arguments. -/
theorem ref_eq
    (x : (⟨Cert.ReferenceIdeal.S4x2048x1024, .f32⟩ : BufTy).Contents (Elt Ideal))
    (w : (⟨Cert.ReferenceIdeal.S3072x1024, .f32⟩ : BufTy).Contents (Elt Ideal))
    (wo : (⟨Cert.ReferenceIdeal.S1024x1024, .f32⟩ : BufTy).Contents (Elt Ideal)) :
    Cert.ReferenceIdeal.Read.val_main_v25 (F := Ideal) x w wo = Cert.Attn.G x w wo := by
  funext j
  obtain ⟨b, n, e, rfl⟩ : ∃ (b : Fin 4) (n : Fin 2048) (e : Fin 1024), j = ix3 b n e := ⟨j 0, j 1, j 2, eq_ix3 j⟩
  rw [val_main_v25_apply]
  show _ = ∑ i : Fin 1024, attnOf (part 0 x w) (part 1 x w) (part 2 x w) cst (ix3 b n i) * wo (ix2 e i)
  refine Finset.sum_congr rfl fun i _ => ?_
  have hl : lidx_main_v25 (ix3 b n e) i = ix3 b n i := funext fun a => by
    match a with | ⟨0, _⟩ => rfl | ⟨1, _⟩ => rfl | ⟨2, _⟩ => rfl
  have hr : ridx_main_v25 (ix3 b n e) i = ix2 e i := funext fun a => by
    match a with | ⟨0, _⟩ => rfl | ⟨1, _⟩ => rfl
  rw [hl, hr, v24_at]

end Cert.Attn.Ref

end
-- ==== Proof.lean ====
/-
  Multi-head self-attention computed by three kernels equals the plain array program, at the exact values.

  The kernel program regroups the fused 3072×1024 weight into three 1024×1024 weights, projects the 4×2048×1024 token
  array by each of them (32 row blocks), runs attention per (batch, head pair, query tile) with a softmax over all
  2048 keys inside the block, and projects the result by the output weight (16 row blocks).  The reference computes
  the fused projection whole, splits it per head, and applies the same scaled dot products, softmax, weighted sum and
  output projection as whole-array operations.  Both are the ONE function `Cert.Attn.G` of the three arguments: on the
  kernel side each region's array is read back from its written blocks (an entry of a projection sees its operand
  only through its own row; an entry of attention sees queries through its own row, keys and values through its own
  head's columns), on the reference side each operation is read at an index.  The two sides use the same sums,
  products, exponentials and quotients entry by entry — the scale 1/√64 is the word 1/8 —, nothing is cancelled or
  distributed, so the precondition that the inputs are finite is never opened.  The idealization rewrote no
  operation, so there is nothing to preserve; the three frames are the generated ones.
-/
import proofs.«144489_j31301721653741_2_alg».proof.Defs
import proofs.«144489_j31301721653741_2_alg».proof.Proof.Gen.Kernel
import proofs.«144489_j31301721653741_2_alg».proof.Proof.Gen.Kernel.Skeleton
import proofs.«144489_j31301721653741_2_alg».proof.Proof.Gen.Kernel.Launch
import proofs.«144489_j31301721653741_2_alg».proof.Proof.Gen.Kernel.Points
import proofs.«144489_j31301721653741_2_alg».proof.Proof.Gen.Kernel.Frame
import proofs.«144489_j31301721653741_2_alg».proof.Proof.Gen.KernelIdeal
import proofs.«144489_j31301721653741_2_alg».proof.Proof.Gen.KernelIdeal.Skeleton
import proofs.«144489_j31301721653741_2_alg».proof.Proof.Gen.KernelIdeal.Launch
import proofs.«144489_j31301721653741_2_alg».proof.Proof.Gen.KernelIdeal.Points
import proofs.«144489_j31301721653741_2_alg».proof.Proof.Gen.KernelIdeal.Frame
import proofs.«144489_j31301721653741_2_alg».proof.Proof.Gen.ReferenceIdeal
import proofs.«144489_j31301721653741_2_alg».proof.Proof.Gen.Pre_finite_inputs
import proofs.«144489_j31301721653741_2_alg».proof.Proof.Gen.ReferenceIdeal.Run
import proofs.«144489_j31301721653741_2_alg».proof.Proof.Gen.ReferenceIdeal.Read
import proofs.«144489_j31301721653741_2_alg».proof.Proof.KernelValue
import proofs.«144489_j31301721653741_2_alg».proof.Proof.AttnBody
import proofs.«144489_j31301721653741_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result buffer at `Cert.Attn.G` of arguments that agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Attn.KV.result_eq m ρ Cert.Attn.Body.out1_3_eq c), (h c).2⟩)
      (Cert.KernelIdeal.RunValue.run_named m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v25_eq, Cert.Attn.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
